-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x512x512 : Shape := ⟨3, ![2, 512, 512]⟩
abbrev S2x512x64 : Shape := ⟨3, ![2, 512, 64]⟩
abbrev S512x64 : Shape := ⟨2, ![512, 64]⟩
abbrev S512x2048 : Shape := ⟨2, ![512, 2048]⟩
abbrev S64x2048 : Shape := ⟨2, ![64, 2048]⟩
abbrev S2048x512 : Shape := ⟨2, ![2048, 512]⟩
abbrev S2048x64 : Shape := ⟨2, ![2048, 64]⟩
abbrev S_ : Shape := ⟨0, ![]⟩

class Facts : Prop where
  bcast_S_S2x512x512 : S_.BroadcastsInDim S2x512x512 (![] : Fin 0 → Fin S2x512x512.rank)
  reducesTo_S2x512x512_S_d0_1_2 : S2x512x512.ReducesTo [0, 1, 2] S_
  h_S_ : 0 < S_.numel
  bcast_S_S2x512x64 : S_.BroadcastsInDim S2x512x64 (![] : Fin 0 → Fin S2x512x64.rank)
  reducesTo_S2x512x64_S_d0_1_2 : S2x512x64.ReducesTo [0, 1, 2] S_
  bcast_S_S512x64 : S_.BroadcastsInDim S512x64 (![] : Fin 0 → Fin S512x64.rank)
  reducesTo_S512x64_S_d0_1 : S512x64.ReducesTo [0, 1] S_
  bcast_S_S512x2048 : S_.BroadcastsInDim S512x2048 (![] : Fin 0 → Fin S512x2048.rank)
  reducesTo_S512x2048_S_d0_1 : S512x2048.ReducesTo [0, 1] S_
  bcast_S_S64x2048 : S_.BroadcastsInDim S64x2048 (![] : Fin 0 → Fin S64x2048.rank)
  reducesTo_S64x2048_S_d0_1 : S64x2048.ReducesTo [0, 1] S_
  bcast_S_S2048x512 : S_.BroadcastsInDim S2048x512 (![] : Fin 0 → Fin S2048x512.rank)
  reducesTo_S2048x512_S_d0_1 : S2048x512.ReducesTo [0, 1] S_
  bcast_S_S2048x64 : S_.BroadcastsInDim S2048x64 (![] : Fin 0 → Fin S2048x64.rank)
  reducesTo_S2048x64_S_d0_1 : S2048x64.ReducesTo [0, 1] S_

variable [Facts]

def fn_part2 {F : FTy → Type} [FloatOps F] (main_arg7 : FVec F S2048x64 .f32) (main_v33 : IVec S_ 1) : IVec S_ 1 :=
  let main_v34 : FVec F S2048x64 .f32 := Host.absf main_arg7
  let main_cst_12 : FVec F S_ .f32 := constant S_ .f32 0x7F800000#32
  let main_v35 : FVec F S2048x64 .f32 := broadcastInDim S2048x64 ![] bcast_S_S2048x64 main_cst_12
  let main_v36 : IVec S2048x64 1 := cmpf .olt main_v34 main_v35
  let main_c_13 : IVec S_ 1 := constantI S_ 1 1#1
  let main_v37 : IVec S_ 1 := (fun x v => Host.reduce IntOp.andi x v reducesTo_S2048x64_S_d0_1 h_S_) main_v36 main_c_13
  let main_v38 : IVec S_ 1 := andi main_v33 main_v37
  main_v38

def fn_part1 {F : FTy → Type} [FloatOps F] (main_arg4 : FVec F S64x2048 .f32) (main_arg5 : FVec F S64x2048 .f32) (main_arg6 : FVec F S2048x512 .f32) (main_arg7 : FVec F S2048x64 .f32) (main_v13 : IVec S_ 1) (main_v16 : IVec S512x2048 1) : IVec S_ 1 :=
  let main_c_5 : IVec S_ 1 := constantI S_ 1 1#1
  let main_v17 : IVec S_ 1 := (fun x v => Host.reduce IntOp.andi x v reducesTo_S512x2048_S_d0_1 h_S_) main_v16 main_c_5
  let main_v18 : IVec S_ 1 := andi main_v13 main_v17
  let main_v19 : FVec F S64x2048 .f32 := Host.absf main_arg4
  let main_cst_6 : FVec F S_ .f32 := constant S_ .f32 0x7F800000#32
  let main_v20 : FVec F S64x2048 .f32 := broadcastInDim S64x2048 ![] bcast_S_S64x2048 main_cst_6
  let main_v21 : IVec S64x2048 1 := cmpf .olt main_v19 main_v20
  let main_c_7 : IVec S_ 1 := constantI S_ 1 1#1
  let main_v22 : IVec S_ 1 := (fun x v => Host.reduce IntOp.andi x v reducesTo_S64x2048_S_d0_1 h_S_) main_v21 main_c_7
  let main_v23 : IVec S_ 1 := andi main_v18 main_v22
  let main_v24 : FVec F S64x2048 .f32 := Host.absf main_arg5
  let main_cst_8 : FVec F S_ .f32 := constant S_ .f32 0x7F800000#32
  let main_v25 : FVec F S64x2048 .f32 := broadcastInDim S64x2048 ![] bcast_S_S64x2048 main_cst_8
  let main_v26 : IVec S64x2048 1 := cmpf .olt main_v24 main_v25
  let main_c_9 : IVec S_ 1 := constantI S_ 1 1#1
  let main_v27 : IVec S_ 1 := (fun x v => Host.reduce IntOp.andi x v reducesTo_S64x2048_S_d0_1 h_S_) main_v26 main_c_9
  let main_v28 : IVec S_ 1 := andi main_v23 main_v27
  let main_v29 : FVec F S2048x512 .f32 := Host.absf main_arg6
  let main_cst_10 : FVec F S_ .f32 := constant S_ .f32 0x7F800000#32
  let main_v30 : FVec F S2048x512 .f32 := broadcastInDim S2048x512 ![] bcast_S_S2048x512 main_cst_10
  let main_v31 : IVec S2048x512 1 := cmpf .olt main_v29 main_v30
  let main_c_11 : IVec S_ 1 := constantI S_ 1 1#1
  let main_v32 : IVec S_ 1 := (fun x v => Host.reduce IntOp.andi x v reducesTo_S2048x512_S_d0_1 h_S_) main_v31 main_c_11
  let main_v33 : IVec S_ 1 := andi main_v28 main_v32
  fn_part2 (F := F) main_arg7 main_v33

def fn {F : FTy → Type} [FloatOps F] (main_arg0 : FVec F S2x512x512 .f32) (main_arg1 : FVec F S2x512x64 .f32) (main_arg2 : FVec F S512x64 .f32) (main_arg3 : FVec F S512x2048 .f32) (main_arg4 : FVec F S64x2048 .f32) (main_arg5 : FVec F S64x2048 .f32) (main_arg6 : FVec F S2048x512 .f32) (main_arg7 : FVec F S2048x64 .f32) : IVec S_ 1 :=
  let main_v0 : FVec F S2x512x512 .f32 := Host.absf main_arg0
  let main_cst : FVec F S_ .f32 := constant S_ .f32 0x7F800000#32
  let main_v1 : FVec F S2x512x512 .f32 := broadcastInDim S2x512x512 ![] bcast_S_S2x512x512 main_cst
  let main_v2 : IVec S2x512x512 1 := cmpf .olt main_v0 main_v1
  let main_c : IVec S_ 1 := constantI S_ 1 1#1
  let main_v3 : IVec S_ 1 := (fun x v => Host.reduce IntOp.andi x v reducesTo_S2x512x512_S_d0_1_2 h_S_) main_v2 main_c
  let main_v4 : FVec F S2x512x64 .f32 := Host.absf main_arg1
  let main_cst_0 : FVec F S_ .f32 := constant S_ .f32 0x7F800000#32
  let main_v5 : FVec F S2x512x64 .f32 := broadcastInDim S2x512x64 ![] bcast_S_S2x512x64 main_cst_0
  let main_v6 : IVec S2x512x64 1 := cmpf .olt main_v4 main_v5
  let main_c_1 : IVec S_ 1 := constantI S_ 1 1#1
  let main_v7 : IVec S_ 1 := (fun x v => Host.reduce IntOp.andi x v reducesTo_S2x512x64_S_d0_1_2 h_S_) main_v6 main_c_1
  let main_v8 : IVec S_ 1 := andi main_v3 main_v7
  let main_v9 : FVec F S512x64 .f32 := Host.absf main_arg2
  let main_cst_2 : FVec F S_ .f32 := constant S_ .f32 0x7F800000#32
  let main_v10 : FVec F S512x64 .f32 := broadcastInDim S512x64 ![] bcast_S_S512x64 main_cst_2
  let main_v11 : IVec S512x64 1 := cmpf .olt main_v9 main_v10
  let main_c_3 : IVec S_ 1 := constantI S_ 1 1#1
  let main_v12 : IVec S_ 1 := (fun x v => Host.reduce IntOp.andi x v reducesTo_S512x64_S_d0_1 h_S_) main_v11 main_c_3
  let main_v13 : IVec S_ 1 := andi main_v8 main_v12
  let main_v14 : FVec F S512x2048 .f32 := Host.absf main_arg3
  let main_cst_4 : FVec F S_ .f32 := constant S_ .f32 0x7F800000#32
  let main_v15 : FVec F S512x2048 .f32 := broadcastInDim S512x2048 ![] bcast_S_S512x2048 main_cst_4
  let main_v16 : IVec S512x2048 1 := cmpf .olt main_v14 main_v15
  fn_part1 (F := F) main_arg4 main_arg5 main_arg6 main_arg7 main_v13 main_v16
-- ==== Kernel.lean ====
abbrev S2x512x512 : Shape := ⟨3, ![2, 512, 512]⟩
abbrev S2x512x64 : Shape := ⟨3, ![2, 512, 64]⟩
abbrev S512x64 : Shape := ⟨2, ![512, 64]⟩
abbrev S512x2048 : Shape := ⟨2, ![512, 2048]⟩
abbrev S64x2048 : Shape := ⟨2, ![64, 2048]⟩
abbrev S2048x512 : Shape := ⟨2, ![2048, 512]⟩
abbrev S2048x64 : Shape := ⟨2, ![2048, 64]⟩
abbrev S1024x512 : Shape := ⟨2, ![1024, 512]⟩
abbrev S1024x64 : Shape := ⟨2, ![1024, 64]⟩
abbrev S256x512 : Shape := ⟨2, ![256, 512]⟩
abbrev S256x64 : Shape := ⟨2, ![256, 64]⟩
abbrev S64x1024 : Shape := ⟨2, ![64, 1024]⟩
abbrev S512x1024 : Shape := ⟨2, ![512, 1024]⟩
abbrev S256x1024 : Shape := ⟨2, ![256, 1024]⟩
abbrev S256x1 : Shape := ⟨2, ![256, 1]⟩
abbrev S1x1024 : Shape := ⟨2, ![1, 1024]⟩

abbrev nBuf : Space → Nat
  | .hbm => 17
  | .vmem => 22
  | .smem => 0
  | _ => 0

abbrev bufTy : (tb : Table) → Fin (tcTables nBuf tb) → BufTy
  | .hbm, ⟨0, _⟩ => ⟨S2x512x512, .f32⟩
  | .hbm, ⟨1, _⟩ => ⟨S2x512x64, .f32⟩
  | .hbm, ⟨2, _⟩ => ⟨S512x64, .f32⟩
  | .hbm, ⟨3, _⟩ => ⟨S512x2048, .f32⟩
  | .hbm, ⟨4, _⟩ => ⟨S64x2048, .f32⟩
  | .hbm, ⟨5, _⟩ => ⟨S64x2048, .f32⟩
  | .hbm, ⟨6, _⟩ => ⟨S2048x512, .f32⟩
  | .hbm, ⟨7, _⟩ => ⟨S2048x64, .f32⟩
  | .hbm, ⟨8, _⟩ => ⟨S1024x512, .f32⟩
  | .hbm, ⟨9, _⟩ => ⟨S1024x64, .f32⟩
  | .hbm, ⟨10, _⟩ => ⟨S512x2048, .bf16⟩
  | .hbm, ⟨11, _⟩ => ⟨S2048x512, .bf16⟩
  | .hbm, ⟨12, _⟩ => ⟨S2048x64, .bf16⟩
  | .hbm, ⟨13, _⟩ => ⟨S1024x512, .f32⟩
  | .hbm, ⟨14, _⟩ => ⟨S1024x64, .f32⟩
  | .hbm, ⟨15, _⟩ => ⟨S2x512x512, .f32⟩
  | .hbm, ⟨16, _⟩ => ⟨S2x512x64, .f32⟩
  | .local _ .vmem, ⟨0, _⟩ => ⟨S256x512, .f32⟩
  | .local _ .vmem, ⟨1, _⟩ => ⟨S256x512, .f32⟩
  | .local _ .vmem, ⟨2, _⟩ => ⟨S256x64, .f32⟩
  | .local _ .vmem, ⟨3, _⟩ => ⟨S256x64, .f32⟩
  | .local _ .vmem, ⟨4, _⟩ => ⟨S256x64, .f32⟩
  | .local _ .vmem, ⟨5, _⟩ => ⟨S256x64, .f32⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | .local _ .vmem, ⟨9, _⟩ => ⟨S64x1024, .f32⟩
  | .local _ .vmem, ⟨10, _⟩ => ⟨S512x1024, .bf16⟩
  | .local _ .vmem, ⟨11, _⟩ => ⟨S512x1024, .bf16⟩
  | .local _ .vmem, ⟨12, _⟩ => ⟨S1024x512, .bf16⟩
  | .local _ .vmem, ⟨13, _⟩ => ⟨S1024x512, .bf16⟩
  | .local _ .vmem, ⟨14, _⟩ => ⟨S1024x64, .bf16⟩
  | .local _ .vmem, ⟨15, _⟩ => ⟨S1024x64, .bf16⟩
  | .local _ .vmem, ⟨16, _⟩ => ⟨S256x512, .f32⟩
  | .local _ .vmem, ⟨17, _⟩ => ⟨S256x512, .f32⟩
  | .local _ .vmem, ⟨18, _⟩ => ⟨S256x64, .f32⟩
  | .local _ .vmem, ⟨19, _⟩ => ⟨S256x64, .f32⟩
  | .local _ .vmem, ⟨20, _⟩ => ⟨S256x512, .f32⟩
  | .local _ .vmem, ⟨21, _⟩ => ⟨S256x64, .f32⟩
  | _, _ => ⟨S2x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![4, 2], ![false, false]⟩

def k0_cond2 (i : grid0.Coords) : BitVec 1 :=
  let arg1 : BitVec 32 := BitVec.ofNat 32 (i 1).val
  let c1_i32 : BitVec 32 := 1#32
  let v677 : BitVec 1 := Scalar.cmpi .eq arg1 c1_i32
  let v678 : BitVec 32 := Scalar.extui v677
  let c0_i32_28 : BitVec 32 := 0#32
  let v679 : BitVec 1 := Scalar.cmpi .ne v678 c0_i32_28
  v679

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S256x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

class Facts₀ : Prop where
  shapeCasts_S2x512x512_S1024x512 : S2x512x512.ShapeCasts S1024x512
  shapeCasts_S2x512x64_S1024x64 : S2x512x64.ShapeCasts S1024x64
  bitsLt_bf16_f32 : FTy.bits .bf16 < FTy.bits .f32
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S64x1024_S64x1024_0_0 : ∀ a, (![0, 0] : Fin 2 → Nat) a + S64x1024.size a ≤ S64x1024.size a
  h_S64x1024 : 0 < S64x1024.numel
  slices_S256x64_o0_0_S256x1 : S256x64.Slices ![0, 0] S256x1
  slices_S64x1024_o0_0_S1x1024 : S64x1024.Slices ![0, 0] S1x1024
  broadcasts_S256x1_S256x1024 : S256x1.Broadcasts S256x1024
  broadcasts_S1x1024_S256x1024 : S1x1024.Broadcasts S256x1024
  slices_S256x64_o0_1_S256x1 : S256x64.Slices ![0, 1] S256x1
  slices_S64x1024_o1_0_S1x1024 : S64x1024.Slices ![1, 0] S1x1024
  slices_S256x64_o0_2_S256x1 : S256x64.Slices ![0, 2] S256x1
  slices_S64x1024_o2_0_S1x1024 : S64x1024.Slices ![2, 0] S1x1024
  slices_S256x64_o0_3_S256x1 : S256x64.Slices ![0, 3] S256x1
  slices_S64x1024_o3_0_S1x1024 : S64x1024.Slices ![3, 0] S1x1024
  slices_S256x64_o0_4_S256x1 : S256x64.Slices ![0, 4] S256x1
  slices_S64x1024_o4_0_S1x1024 : S64x1024.Slices ![4, 0] S1x1024
  slices_S256x64_o0_5_S256x1 : S256x64.Slices ![0, 5] S256x1
  slices_S64x1024_o5_0_S1x1024 : S64x1024.Slices ![5, 0] S1x1024
  slices_S256x64_o0_6_S256x1 : S256x64.Slices ![0, 6] S256x1
  slices_S64x1024_o6_0_S1x1024 : S64x1024.Slices ![6, 0] S1x1024
  slices_S256x64_o0_7_S256x1 : S256x64.Slices ![0, 7] S256x1
  slices_S64x1024_o7_0_S1x1024 : S64x1024.Slices ![7, 0] S1x1024
  slices_S256x64_o0_8_S256x1 : S256x64.Slices ![0, 8] S256x1
  slices_S64x1024_o8_0_S1x1024 : S64x1024.Slices ![8, 0] S1x1024
  slices_S256x64_o0_9_S256x1 : S256x64.Slices ![0, 9] S256x1
  slices_S64x1024_o9_0_S1x1024 : S64x1024.Slices ![9, 0] S1x1024
  slices_S256x64_o0_10_S256x1 : S256x64.Slices ![0, 10] S256x1
  slices_S64x1024_o10_0_S1x1024 : S64x1024.Slices ![10, 0] S1x1024
  slices_S256x64_o0_11_S256x1 : S256x64.Slices ![0, 11] S256x1
  slices_S64x1024_o11_0_S1x1024 : S64x1024.Slices ![11, 0] S1x1024
  slices_S256x64_o0_12_S256x1 : S256x64.Slices ![0, 12] S256x1
  slices_S64x1024_o12_0_S1x1024 : S64x1024.Slices ![12, 0] S1x1024
  slices_S256x64_o0_13_S256x1 : S256x64.Slices ![0, 13] S256x1
  slices_S64x1024_o13_0_S1x1024 : S64x1024.Slices ![13, 0] S1x1024
  slices_S256x64_o0_14_S256x1 : S256x64.Slices ![0, 14] S256x1
  slices_S64x1024_o14_0_S1x1024 : S64x1024.Slices ![14, 0] S1x1024
  slices_S256x64_o0_15_S256x1 : S256x64.Slices ![0, 15] S256x1
  slices_S64x1024_o15_0_S1x1024 : S64x1024.Slices ![15, 0] S1x1024
  slices_S256x64_o0_16_S256x1 : S256x64.Slices ![0, 16] S256x1
  slices_S64x1024_o16_0_S1x1024 : S64x1024.Slices ![16, 0] S1x1024
  slices_S256x64_o0_17_S256x1 : S256x64.Slices ![0, 17] S256x1
  slices_S64x1024_o17_0_S1x1024 : S64x1024.Slices ![17, 0] S1x1024
  slices_S256x64_o0_18_S256x1 : S256x64.Slices ![0, 18] S256x1
  slices_S64x1024_o18_0_S1x1024 : S64x1024.Slices ![18, 0] S1x1024
  slices_S256x64_o0_19_S256x1 : S256x64.Slices ![0, 19] S256x1
  slices_S64x1024_o19_0_S1x1024 : S64x1024.Slices ![19, 0] S1x1024
  slices_S256x64_o0_20_S256x1 : S256x64.Slices ![0, 20] S256x1
  slices_S64x1024_o20_0_S1x1024 : S64x1024.Slices ![20, 0] S1x1024
  slices_S256x64_o0_21_S256x1 : S256x64.Slices ![0, 21] S256x1
  slices_S64x1024_o21_0_S1x1024 : S64x1024.Slices ![21, 0] S1x1024
  slices_S256x64_o0_22_S256x1 : S256x64.Slices ![0, 22] S256x1
  slices_S64x1024_o22_0_S1x1024 : S64x1024.Slices ![22, 0] S1x1024
  slices_S256x64_o0_23_S256x1 : S256x64.Slices ![0, 23] S256x1
  slices_S64x1024_o23_0_S1x1024 : S64x1024.Slices ![23, 0] S1x1024
  slices_S256x64_o0_24_S256x1 : S256x64.Slices ![0, 24] S256x1
  slices_S64x1024_o24_0_S1x1024 : S64x1024.Slices ![24, 0] S1x1024
  slices_S256x64_o0_25_S256x1 : S256x64.Slices ![0, 25] S256x1
  slices_S64x1024_o25_0_S1x1024 : S64x1024.Slices ![25, 0] S1x1024
  slices_S256x64_o0_26_S256x1 : S256x64.Slices ![0, 26] S256x1
  slices_S64x1024_o26_0_S1x1024 : S64x1024.Slices ![26, 0] S1x1024
  slices_S256x64_o0_27_S256x1 : S256x64.Slices ![0, 27] S256x1
  slices_S64x1024_o27_0_S1x1024 : S64x1024.Slices ![27, 0] S1x1024
  slices_S256x64_o0_28_S256x1 : S256x64.Slices ![0, 28] S256x1
  slices_S64x1024_o28_0_S1x1024 : S64x1024.Slices ![28, 0] S1x1024
  slices_S256x64_o0_29_S256x1 : S256x64.Slices ![0, 29] S256x1
  slices_S64x1024_o29_0_S1x1024 : S64x1024.Slices ![29, 0] S1x1024
  slices_S256x64_o0_30_S256x1 : S256x64.Slices ![0, 30] S256x1
  slices_S64x1024_o30_0_S1x1024 : S64x1024.Slices ![30, 0] S1x1024
  slices_S256x64_o0_31_S256x1 : S256x64.Slices ![0, 31] S256x1
  slices_S64x1024_o31_0_S1x1024 : S64x1024.Slices ![31, 0] S1x1024
  slices_S256x64_o0_32_S256x1 : S256x64.Slices ![0, 32] S256x1
  slices_S64x1024_o32_0_S1x1024 : S64x1024.Slices ![32, 0] S1x1024
  slices_S256x64_o0_33_S256x1 : S256x64.Slices ![0, 33] S256x1
  slices_S64x1024_o33_0_S1x1024 : S64x1024.Slices ![33, 0] S1x1024
  slices_S256x64_o0_34_S256x1 : S256x64.Slices ![0, 34] S256x1
  slices_S64x1024_o34_0_S1x1024 : S64x1024.Slices ![34, 0] S1x1024
  slices_S256x64_o0_35_S256x1 : S256x64.Slices ![0, 35] S256x1
  slices_S64x1024_o35_0_S1x1024 : S64x1024.Slices ![35, 0] S1x1024
  slices_S256x64_o0_36_S256x1 : S256x64.Slices ![0, 36] S256x1
  slices_S64x1024_o36_0_S1x1024 : S64x1024.Slices ![36, 0] S1x1024
  slices_S256x64_o0_37_S256x1 : S256x64.Slices ![0, 37] S256x1
  slices_S64x1024_o37_0_S1x1024 : S64x1024.Slices ![37, 0] S1x1024
  slices_S256x64_o0_38_S256x1 : S256x64.Slices ![0, 38] S256x1
  slices_S64x1024_o38_0_S1x1024 : S64x1024.Slices ![38, 0] S1x1024
  slices_S256x64_o0_39_S256x1 : S256x64.Slices ![0, 39] S256x1
  slices_S64x1024_o39_0_S1x1024 : S64x1024.Slices ![39, 0] S1x1024
  slices_S256x64_o0_40_S256x1 : S256x64.Slices ![0, 40] S256x1
  slices_S64x1024_o40_0_S1x1024 : S64x1024.Slices ![40, 0] S1x1024
  slices_S256x64_o0_41_S256x1 : S256x64.Slices ![0, 41] S256x1
  slices_S64x1024_o41_0_S1x1024 : S64x1024.Slices ![41, 0] S1x1024
  slices_S256x64_o0_42_S256x1 : S256x64.Slices ![0, 42] S256x1
  slices_S64x1024_o42_0_S1x1024 : S64x1024.Slices ![42, 0] S1x1024
  slices_S256x64_o0_43_S256x1 : S256x64.Slices ![0, 43] S256x1
  slices_S64x1024_o43_0_S1x1024 : S64x1024.Slices ![43, 0] S1x1024
  slices_S256x64_o0_44_S256x1 : S256x64.Slices ![0, 44] S256x1
  slices_S64x1024_o44_0_S1x1024 : S64x1024.Slices ![44, 0] S1x1024
  slices_S256x64_o0_45_S256x1 : S256x64.Slices ![0, 45] S256x1
  slices_S64x1024_o45_0_S1x1024 : S64x1024.Slices ![45, 0] S1x1024
  slices_S256x64_o0_46_S256x1 : S256x64.Slices ![0, 46] S256x1
  slices_S64x1024_o46_0_S1x1024 : S64x1024.Slices ![46, 0] S1x1024
  slices_S256x64_o0_47_S256x1 : S256x64.Slices ![0, 47] S256x1
  slices_S64x1024_o47_0_S1x1024 : S64x1024.Slices ![47, 0] S1x1024
  slices_S256x64_o0_48_S256x1 : S256x64.Slices ![0, 48] S256x1
  slices_S64x1024_o48_0_S1x1024 : S64x1024.Slices ![48, 0] S1x1024
  slices_S256x64_o0_49_S256x1 : S256x64.Slices ![0, 49] S256x1
  slices_S64x1024_o49_0_S1x1024 : S64x1024.Slices ![49, 0] S1x1024
  slices_S256x64_o0_50_S256x1 : S256x64.Slices ![0, 50] S256x1
  slices_S64x1024_o50_0_S1x1024 : S64x1024.Slices ![50, 0] S1x1024
  slices_S256x64_o0_51_S256x1 : S256x64.Slices ![0, 51] S256x1
  slices_S64x1024_o51_0_S1x1024 : S64x1024.Slices ![51, 0] S1x1024
  slices_S256x64_o0_52_S256x1 : S256x64.Slices ![0, 52] S256x1
  slices_S64x1024_o52_0_S1x1024 : S64x1024.Slices ![52, 0] S1x1024
  slices_S256x64_o0_53_S256x1 : S256x64.Slices ![0, 53] S256x1
  slices_S64x1024_o53_0_S1x1024 : S64x1024.Slices ![53, 0] S1x1024
  slices_S256x64_o0_54_S256x1 : S256x64.Slices ![0, 54] S256x1
  slices_S64x1024_o54_0_S1x1024 : S64x1024.Slices ![54, 0] S1x1024
  slices_S256x64_o0_55_S256x1 : S256x64.Slices ![0, 55] S256x1
  slices_S64x1024_o55_0_S1x1024 : S64x1024.Slices ![55, 0] S1x1024
  slices_S256x64_o0_56_S256x1 : S256x64.Slices ![0, 56] S256x1
  slices_S64x1024_o56_0_S1x1024 : S64x1024.Slices ![56, 0] S1x1024
  slices_S256x64_o0_57_S256x1 : S256x64.Slices ![0, 57] S256x1
  slices_S64x1024_o57_0_S1x1024 : S64x1024.Slices ![57, 0] S1x1024
  slices_S256x64_o0_58_S256x1 : S256x64.Slices ![0, 58] S256x1
  slices_S64x1024_o58_0_S1x1024 : S64x1024.Slices ![58, 0] S1x1024
  slices_S256x64_o0_59_S256x1 : S256x64.Slices ![0, 59] S256x1
  slices_S64x1024_o59_0_S1x1024 : S64x1024.Slices ![59, 0] S1x1024
  slices_S256x64_o0_60_S256x1 : S256x64.Slices ![0, 60] S256x1
  slices_S64x1024_o60_0_S1x1024 : S64x1024.Slices ![60, 0] S1x1024
  slices_S256x64_o0_61_S256x1 : S256x64.Slices ![0, 61] S256x1
  slices_S64x1024_o61_0_S1x1024 : S64x1024.Slices ![61, 0] S1x1024
  slices_S256x64_o0_62_S256x1 : S256x64.Slices ![0, 62] S256x1
  slices_S64x1024_o62_0_S1x1024 : S64x1024.Slices ![62, 0] S1x1024
  slices_S256x64_o0_63_S256x1 : S256x64.Slices ![0, 63] S256x1
  slices_S64x1024_o63_0_S1x1024 : S64x1024.Slices ![63, 0] S1x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  shapeCasts_S1024x512_S2x512x512 : S1024x512.ShapeCasts S2x512x512
  shapeCasts_S1024x64_S2x512x64 : S1024x64.ShapeCasts S2x512x64
  dot_S256x512_S512x1024_S256x1024_1_0_0_1_n_n_wf : DotDims.WF S256x512 S512x1024 S256x1024 [1] [0] [0] [1] [] []
  dot_S256x1024_S1024x512_S256x512_1_0_0_1_n_n_wf : DotDims.WF S256x1024 S1024x512 S256x512 [1] [0] [0] [1] [] []
  dot_S256x1024_S1024x64_S256x64_1_0_0_1_n_n_wf : DotDims.WF S256x1024 S1024x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S1024x512.size a
  hwx0_0 : ∀ i : grid0.Coords, EltTy.bits .f32 = 32 ∨ (Rect.block (s := S1024x512) S256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S1024x64.size a
  hwx0_1 : ∀ i : grid0.Coords, EltTy.bits .f32 = 32 ∨ (Rect.block (s := S1024x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x64.size a ≤ S512x64.size a
  hwx0_2 : ∀ i : grid0.Coords, EltTy.bits .f32 = 32 ∨ (Rect.block (s := S512x64) S256x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x1024.size a ≤ S64x2048.size a
  hwx0_3 : ∀ i : grid0.Coords, EltTy.bits .f32 = 32 ∨ (Rect.block (s := S64x2048) S64x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x1024.size a ≤ S64x2048.size a
  hwx0_4 : ∀ i : grid0.Coords, EltTy.bits .f32 = 32 ∨ (Rect.block (s := S64x2048) S64x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S512x2048.size a
  hwx0_5 : ∀ i : grid0.Coords, EltTy.bits .bf16 = 32 ∨ (Rect.block (s := S512x2048) S512x1024.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x512.size a ≤ S2048x512.size a
  hwx0_6 : ∀ i : grid0.Coords, EltTy.bits .bf16 = 32 ∨ (Rect.block (s := S2048x512) S1024x512.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x64.size a ≤ S2048x64.size a
  hwx0_7 : ∀ i : grid0.Coords, EltTy.bits .bf16 = 32 ∨ (Rect.block (s := S2048x64) S1024x64.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x512.size a ≤ S1024x512.size a
  hwx0_8 : ∀ i : grid0.Coords, EltTy.bits .f32 = 32 ∨ (Rect.block (s := S1024x512) S256x512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x64.size a ≤ S1024x64.size a
  hwx0_9 : ∀ i : grid0.Coords, EltTy.bits .f32 = 32 ∨ (Rect.block (s := S1024x64) S256x64.size (cc0_transform_9 i) (hinb0_9 i)).WholeWords (EltTy.packing .f32)

variable [Facts₀]

def dot_S256x512_S512x1024_S256x1024_1_0_0_1_n_n : DotDims S256x512 S512x1024 S256x1024 where
  lhsContracting := [1]
  rhsContracting := [0]
  lhsNonContracting := [0]
  rhsNonContracting := [1]
  lhsBatch := []
  rhsBatch := []
  wf := dot_S256x512_S512x1024_S256x1024_1_0_0_1_n_n_wf
def dot_S256x1024_S1024x512_S256x512_1_0_0_1_n_n : DotDims S256x1024 S1024x512 S256x512 where
  lhsContracting := [1]
  rhsContracting := [0]
  lhsNonContracting := [0]
  rhsNonContracting := [1]
  lhsBatch := []
  rhsBatch := []
  wf := dot_S256x1024_S1024x512_S256x512_1_0_0_1_n_n_wf
def dot_S256x1024_S1024x64_S256x64_1_0_0_1_n_n : DotDims S256x1024 S1024x64 S256x64 where
  lhsContracting := [1]
  rhsContracting := [0]
  lhsNonContracting := [0]
  rhsNonContracting := [1]
  lhsBatch := []
  rhsBatch := []
  wf := dot_S256x1024_S1024x64_S256x64_1_0_0_1_n_n_wf

abbrev win0_0 : Pipeline.Window sig grid0 :=
  Pipeline.Window.ofSpec (Memref.whole main_v0) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S64x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S512x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1024x512.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1024x64.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v5_0) S256x512.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v5_1) S256x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev idle0 : Fin 10 → grid0.Coords → Bool := fun | 0 => fun _ => false | 1 => fun _ => false | 2 => fun _ => false | 3 => fun _ => false | 4 => fun _ => false | 5 => fun _ => false | 6 => fun _ => false | 7 => fun _ => false | 8 => fun i => !(k0_cond2 i == 1#1) | 9 => fun i => !(k0_cond2 i == 1#1) | ⟨_ + 10, h⟩ => absurd h (Nat.not_lt.2 (Nat.le_add_left _ _))

class Facts : Prop extends Facts₀ where

variable [Facts]
-- ==== ReferenceIdeal.lean ====
abbrev S2x512x512 : Shape := ⟨3, ![2, 512, 512]⟩
abbrev S2x512x64 : Shape := ⟨3, ![2, 512, 64]⟩
abbrev S512x64 : Shape := ⟨2, ![512, 64]⟩
abbrev S512x2048 : Shape := ⟨2, ![512, 2048]⟩
abbrev S64x2048 : Shape := ⟨2, ![64, 2048]⟩
abbrev S2048x512 : Shape := ⟨2, ![2048, 512]⟩
abbrev S2048x64 : Shape := ⟨2, ![2048, 64]⟩
abbrev S1x512x64 : Shape := ⟨3, ![1, 512, 64]⟩
abbrev S2x512x64x1 : Shape := ⟨4, ![2, 512, 64, 1]⟩
abbrev S1x1x64x2048 : Shape := ⟨4, ![1, 1, 64, 2048]⟩
abbrev S2x512x64x2048 : Shape := ⟨4, ![2, 512, 64, 2048]⟩
abbrev S_ : Shape := ⟨0, ![]⟩
abbrev S2x512x2048 : Shape := ⟨3, ![2, 512, 2048]⟩

abbrev nBuf : Space → Nat
  | .hbm => 31
  | .vmem => 0
  | .smem => 0
  | _ => 0

abbrev bufTy : (tb : Table) → Fin (tcTables nBuf tb) → BufTy
  | .hbm, ⟨0, _⟩ => ⟨S2x512x512, .f32⟩
  | .hbm, ⟨1, _⟩ => ⟨S2x512x64, .f32⟩
  | .hbm, ⟨2, _⟩ => ⟨S512x64, .f32⟩
  | .hbm, ⟨3, _⟩ => ⟨S512x2048, .f32⟩
  | .hbm, ⟨4, _⟩ => ⟨S64x2048, .f32⟩
  | .hbm, ⟨5, _⟩ => ⟨S64x2048, .f32⟩
  | .hbm, ⟨6, _⟩ => ⟨S2048x512, .f32⟩
  | .hbm, ⟨7, _⟩ => ⟨S2048x64, .f32⟩
  | .hbm, ⟨8, _⟩ => ⟨S1x512x64, .f32⟩
  | .hbm, ⟨9, _⟩ => ⟨S2x512x64, .f32⟩
  | .hbm, ⟨10, _⟩ => ⟨S2x512x64, .f32⟩
  | .hbm, ⟨11, _⟩ => ⟨S2x512x64x1, .f32⟩
  | .hbm, ⟨12, _⟩ => ⟨S1x1x64x2048, .f32⟩
  | .hbm, ⟨13, _⟩ => ⟨S2x512x64x2048, .f32⟩
  | .hbm, ⟨14, _⟩ => ⟨S2x512x64x2048, .f32⟩
  | .hbm, ⟨15, _⟩ => ⟨S2x512x64x2048, .f32⟩
  | .hbm, ⟨16, _⟩ => ⟨S1x1x64x2048, .f32⟩
  | .hbm, ⟨17, _⟩ => ⟨S2x512x64x2048, .f32⟩
  | .hbm, ⟨18, _⟩ => ⟨S2x512x64x2048, .f32⟩
  | .hbm, ⟨19, _⟩ => ⟨S2x512x64x2048, .f32⟩
  | .hbm, ⟨20, _⟩ => ⟨S_, .f32⟩
  | .hbm, ⟨21, _⟩ => ⟨S2x512x2048, .f32⟩
  | .hbm, ⟨22, _⟩ => ⟨S_, .f32⟩
  | .hbm, ⟨23, _⟩ => ⟨S2x512x2048, .f32⟩
  | .hbm, ⟨24, _⟩ => ⟨S2x512x2048, .f32⟩
  | .hbm, ⟨25, _⟩ => ⟨S2x512x2048, .f32⟩
  | .hbm, ⟨26, _⟩ => ⟨S2x512x2048, .f32⟩
  | .hbm, ⟨27, _⟩ => ⟨S2x512x512, .f32⟩
  | .hbm, ⟨28, _⟩ => ⟨S2x512x512, .f32⟩
  | .hbm, ⟨29, _⟩ => ⟨S2x512x64, .f32⟩
  | .hbm, ⟨30, _⟩ => ⟨S2x512x64, .f32⟩
  | _, _ => ⟨S2x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩

abbrev nD : Nat := 1
abbrev τ : Topo := Topo.v7x

variable {F : FTy → Type} [FloatOps F]

class Facts₀ : Prop where
  bcast_S512x64_S1x512x64_1_2 : S512x64.BroadcastsInDim S1x512x64 (![1, 2] : Fin 2 → Fin S1x512x64.rank)
  bcast_S1x512x64_S2x512x64_0_1_2 : S1x512x64.BroadcastsInDim S2x512x64 (![0, 1, 2] : Fin 3 → Fin S2x512x64.rank)
  bcast_S2x512x64_S2x512x64x1_0_1_2 : S2x512x64.BroadcastsInDim S2x512x64x1 (![0, 1, 2] : Fin 3 → Fin S2x512x64x1.rank)
  bcast_S64x2048_S1x1x64x2048_2_3 : S64x2048.BroadcastsInDim S1x1x64x2048 (![2, 3] : Fin 2 → Fin S1x1x64x2048.rank)
  bcast_S2x512x64x1_S2x512x64x2048_0_1_2_3 : S2x512x64x1.BroadcastsInDim S2x512x64x2048 (![0, 1, 2, 3] : Fin 4 → Fin S2x512x64x2048.rank)
  bcast_S1x1x64x2048_S2x512x64x2048_0_1_2_3 : S1x1x64x2048.BroadcastsInDim S2x512x64x2048 (![0, 1, 2, 3] : Fin 4 → Fin S2x512x64x2048.rank)
  reducesTo_S2x512x64x2048_S2x512x2048_d2 : S2x512x64x2048.ReducesTo [2] S2x512x2048
  h_S_ : 0 < S_.numel
  bcast_S_S2x512x2048 : S_.BroadcastsInDim S2x512x2048 (![] : Fin 0 → Fin S2x512x2048.rank)
  dot_S2x512x512_S512x2048_S2x512x2048_2_0_01_1_n_n_wf : DotDims.WF S2x512x512 S512x2048 S2x512x2048 [2] [0] [0, 1] [1] [] []
  dot_S2x512x2048_S2048x512_S2x512x512_2_0_01_1_n_n_wf : DotDims.WF S2x512x2048 S2048x512 S2x512x512 [2] [0] [0, 1] [1] [] []
  dot_S2x512x2048_S2048x64_S2x512x64_2_0_01_1_n_n_wf : DotDims.WF S2x512x2048 S2048x64 S2x512x64 [2] [0] [0, 1] [1] [] []

variable [Facts₀]

def dot_S2x512x512_S512x2048_S2x512x2048_2_0_01_1_n_n : DotDims S2x512x512 S512x2048 S2x512x2048 where
  lhsContracting := [2]
  rhsContracting := [0]
  lhsNonContracting := [0, 1]
  rhsNonContracting := [1]
  lhsBatch := []
  rhsBatch := []
  wf := dot_S2x512x512_S512x2048_S2x512x2048_2_0_01_1_n_n_wf
def dot_S2x512x2048_S2048x512_S2x512x512_2_0_01_1_n_n : DotDims S2x512x2048 S2048x512 S2x512x512 where
  lhsContracting := [2]
  rhsContracting := [0]
  lhsNonContracting := [0, 1]
  rhsNonContracting := [1]
  lhsBatch := []
  rhsBatch := []
  wf := dot_S2x512x2048_S2048x512_S2x512x512_2_0_01_1_n_n_wf
def dot_S2x512x2048_S2048x64_S2x512x64_2_0_01_1_n_n : DotDims S2x512x2048 S2048x64 S2x512x64 where
  lhsContracting := [2]
  rhsContracting := [0]
  lhsNonContracting := [0, 1]
  rhsNonContracting := [1]
  lhsBatch := []
  rhsBatch := []
  wf := dot_S2x512x2048_S2048x64_S2x512x64_2_0_01_1_n_n_wf

class Facts : Prop extends Facts₀ where

variable [Facts]
-- ==== Proof.Composite.lean ====
/-
  The body's arithmetic, named.

  The printed body is cut into payloads at positions that mean nothing mathematically: the sum of the 64 cosines is
  spread over twelve of them, each continuing the previous one's partial sum. This module composes them back, for any
  float values: `acc k` is the partial sum after the k-th stretch, `gateBlk` the gate block (the whole sum times the
  energy scale), `newS0` / `newS1` what one grid point leaves in the two accumulators, given what it found there.
-/
import proofs.«158703_j16827681866028_2_alg».proof.Proof.Gen.KernelIdeal.Skeleton

noncomputable section

namespace Cert.KernelIdeal.Body

open Cert.KernelIdeal Cert.KernelIdeal.Gen Idealize.ShloMosaic

variable {F : FTy → Type} [FloatOps F]

/-- The partial sum of cosines after positions 0 and 1. -/
def acc1 (x1 x2 : Vec F S256x64 .f32) (x3 x4 : Vec F S64x1024 .f32) : FVec F S256x1024 .f32 :=
  k0_pay8 x1 x2 x3 x4

/-- The partial sum after positions 0 … 7. -/
def acc2 (x1 x2 : Vec F S256x64 .f32) (x3 x4 : Vec F S64x1024 .f32) : FVec F S256x1024 .f32 :=
  k0_pay12 (k0_pay7 x1 x2) x3 x4 (acc1 x1 x2 x3 x4) (k0_pay9 x4) (k0_pay10 x1 x2) (k0_pay11 x3)

/-- The partial sum after positions 0 … 13. -/
def acc3 (x1 x2 : Vec F S256x64 .f32) (x3 x4 : Vec F S64x1024 .f32) : FVec F S256x1024 .f32 :=
  k0_pay16 (k0_pay7 x1 x2) x3 x4 (acc2 x1 x2 x3 x4) (k0_pay13 x4) (k0_pay14 (k0_pay7 x1 x2)) (k0_pay15 x3)

/-- The partial sum after positions 0 … 19. -/
def acc4 (x1 x2 : Vec F S256x64 .f32) (x3 x4 : Vec F S64x1024 .f32) : FVec F S256x1024 .f32 :=
  k0_pay20 (k0_pay7 x1 x2) x3 x4 (acc3 x1 x2 x3 x4) (k0_pay17 x4) (k0_pay18 (k0_pay7 x1 x2)) (k0_pay19 x3)

/-- The partial sum after positions 0 … 25. -/
def acc5 (x1 x2 : Vec F S256x64 .f32) (x3 x4 : Vec F S64x1024 .f32) : FVec F S256x1024 .f32 :=
  k0_pay24 (k0_pay7 x1 x2) x3 x4 (acc4 x1 x2 x3 x4) (k0_pay21 x4) (k0_pay22 (k0_pay7 x1 x2)) (k0_pay23 x3)

/-- The partial sum after positions 0 … 31. -/
def acc6 (x1 x2 : Vec F S256x64 .f32) (x3 x4 : Vec F S64x1024 .f32) : FVec F S256x1024 .f32 :=
  k0_pay28 (k0_pay7 x1 x2) x3 x4 (acc5 x1 x2 x3 x4) (k0_pay25 x4) (k0_pay26 (k0_pay7 x1 x2)) (k0_pay27 x3)

/-- The partial sum after positions 0 … 37. -/
def acc7 (x1 x2 : Vec F S256x64 .f32) (x3 x4 : Vec F S64x1024 .f32) : FVec F S256x1024 .f32 :=
  k0_pay32 (k0_pay7 x1 x2) x3 x4 (acc6 x1 x2 x3 x4) (k0_pay29 x4) (k0_pay30 (k0_pay7 x1 x2)) (k0_pay31 x3)

/-- The partial sum after positions 0 … 43. -/
def acc8 (x1 x2 : Vec F S256x64 .f32) (x3 x4 : Vec F S64x1024 .f32) : FVec F S256x1024 .f32 :=
  k0_pay36 (k0_pay7 x1 x2) x3 x4 (acc7 x1 x2 x3 x4) (k0_pay33 x4) (k0_pay34 (k0_pay7 x1 x2)) (k0_pay35 x3)

/-- The partial sum after positions 0 … 49. -/
def acc9 (x1 x2 : Vec F S256x64 .f32) (x3 x4 : Vec F S64x1024 .f32) : FVec F S256x1024 .f32 :=
  k0_pay40 (k0_pay7 x1 x2) x3 x4 (acc8 x1 x2 x3 x4) (k0_pay37 x4) (k0_pay38 (k0_pay7 x1 x2)) (k0_pay39 x3)

/-- The partial sum after positions 0 … 55. -/
def acc10 (x1 x2 : Vec F S256x64 .f32) (x3 x4 : Vec F S64x1024 .f32) : FVec F S256x1024 .f32 :=
  k0_pay44 (k0_pay7 x1 x2) x3 x4 (acc9 x1 x2 x3 x4) (k0_pay41 x4) (k0_pay42 (k0_pay7 x1 x2)) (k0_pay43 x3)

/-- The partial sum after positions 0 … 61. -/
def acc11 (x1 x2 : Vec F S256x64 .f32) (x3 x4 : Vec F S64x1024 .f32) : FVec F S256x1024 .f32 :=
  k0_pay48 (k0_pay7 x1 x2) x3 x4 (acc10 x1 x2 x3 x4) (k0_pay45 x4) (k0_pay46 (k0_pay7 x1 x2)) (k0_pay47 x3)

/-- The gate block: all 64 cosines summed, times the energy scale. -/
def gateBlk (x1 x2 : Vec F S256x64 .f32) (x3 x4 : Vec F S64x1024 .f32) : FVec F S256x1024 .f32 :=
  k0_pay52 (k0_pay7 x1 x2) x3 x4 (acc11 x1 x2 x3 x4) (k0_pay49 x4) (k0_pay50 (k0_pay7 x1 x2)) (k0_pay51 x3)

/-- What a grid point leaves in the first accumulator when it found `s0` there: `s0` plus the block's
    `(value · gate) · W_down_real`. -/
def newS0 (x0 : Vec F S256x512 .f32) (x1 x2 : Vec F S256x64 .f32) (x3 x4 : Vec F S64x1024 .f32)
    (x5 : Vec F S512x1024 .bf16) (x6 : Vec F S1024x512 .bf16) (s0 : Vec F S256x512 .f32) : FVec F S256x512 .f32 :=
  k0_pay53 (k0_pay6 x0 x5) (k0_pay7 x1 x2) x3 x4 (acc11 x1 x2 x3 x4) (k0_pay49 x4) (k0_pay50 (k0_pay7 x1 x2)) (k0_pay51 x3) s0 x6

/-- What a grid point leaves in the second accumulator when it found `s1` there: `s1` plus the block's
    `gate · W_down_imag`. -/
def newS1 (x1 x2 : Vec F S256x64 .f32) (x3 x4 : Vec F S64x1024 .f32) (x7 : Vec F S1024x64 .bf16)
    (s1 : Vec F S256x64 .f32) : FVec F S256x64 .f32 :=
  k0_pay1 (k0_pay54 (k0_pay7 x1 x2) x3 x4 (acc11 x1 x2 x3 x4) (k0_pay49 x4) (k0_pay50 (k0_pay7 x1 x2)) (k0_pay51 x3) s1 x7)

end Cert.KernelIdeal.Body

end
-- ==== Proof.Pieces.lean ====
/-
  What the body leaves, case by case, as values.

  At a grid point whose reduction coordinate is 0 the body first zeroes the two accumulators, then adds the point's
  contribution to them and stores nothing into the outputs; at a point whose reduction coordinate is 1 it adds the
  contribution to what the previous point left and stores the residual block plus the accumulator into each output.
  The run of the body found, for every buffer, the list of stores that end in it; here each list is read back as one
  value — the last store wins, a load of a buffer just stored reads what was stored — in the vocabulary of
  `Body.newS0` / `Body.newS1`.
-/
import proofs.«158703_j16827681866028_2_alg».proof.Proof.Gen.KernelIdeal.Frame
import proofs.«158703_j16827681866028_2_alg».proof.Proof.Composite
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen Cert.KernelIdeal.Body

variable {F : FTy → Type} [FloatOps F]

theorem hz : (![0, 0] : Fin 2 → Nat) = fun _ => 0 := funext fun a => by fin_cases a <;> rfl

/-- First point of a row tile: the first accumulator ends at the zero block plus the contribution. -/
theorem sA0 (c : Dev nD) (i : grid0.Coords) (arg2 : Memref sig .tc .vmem S256x512 .f32) (harg2 : arg2.IsWhole) (arg3 : Memref sig .tc .vmem S256x64 .f32) (harg3 : arg3.IsWhole) (arg4 : Memref sig .tc .vmem S256x64 .f32) (harg4 : arg4.IsWhole) (arg5 : Memref sig .tc .vmem S64x1024 .f32) (harg5 : arg5.IsWhole) (arg6 : Memref sig .tc .vmem S64x1024 .f32) (harg6 : arg6.IsWhole) (arg7 : Memref sig .tc .vmem S512x1024 .bf16) (harg7 : arg7.IsWhole) (arg8 : Memref sig .tc .vmem S1024x512 .bf16) (harg8 : arg8.IsWhole) (arg9 : Memref sig .tc .vmem S1024x64 .bf16) (harg9 : arg9.IsWhole) (arg10 : Memref sig .tc .vmem S256x512 .f32) (harg10 : arg10.IsWhole) (arg11 : Memref sig .tc .vmem S256x64 .f32) (harg11 : arg11.IsWhole) (arg12 : Memref sig .tc .vmem S256x512 .f32) (harg12 : arg12.IsWhole) (arg13 : Memref sig .tc .vmem S256x64 .f32) (harg13 : arg13.IsWhole) (hc0 : cond0_0 i) (hc1 : ¬cond0_1 i) (x0 : Vec F S256x512 .f32) (x1 : Vec F S256x64 .f32) (x2 : Vec F S256x64 .f32) (x3 : Vec F S64x1024 .f32) (x4 : Vec F S64x1024 .f32) (x5 : Vec F S512x1024 .bf16) (x6 : Vec F S1024x512 .bf16) (x7 : Vec F S1024x64 .bf16) :
    sout0_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 = newS0 x0 x1 x2 x3 x4 x5 x6 k0_pay4 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7)]
  unfold kernelRun0_A
  dsimp only
  sl_unfold_words
  rw [View.canon_cons_unit_zero (S := S256x512) hz, View.readCov_unit_zero (S := S256x512) _ hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S256x512) hz, View.ld_unit_zero (S := S256x64) hz, View.ld_unit_zero (S := S64x1024) hz, View.ld_unit_zero (S := S512x1024) hz, View.ld_unit_zero (S := S1024x512) hz, View.ld_unit_zero (S := S1024x64) hz]
  rfl

/-- First point of a row tile: the second accumulator likewise. -/
theorem sA1 (c : Dev nD) (i : grid0.Coords) (arg2 : Memref sig .tc .vmem S256x512 .f32) (harg2 : arg2.IsWhole) (arg3 : Memref sig .tc .vmem S256x64 .f32) (harg3 : arg3.IsWhole) (arg4 : Memref sig .tc .vmem S256x64 .f32) (harg4 : arg4.IsWhole) (arg5 : Memref sig .tc .vmem S64x1024 .f32) (harg5 : arg5.IsWhole) (arg6 : Memref sig .tc .vmem S64x1024 .f32) (harg6 : arg6.IsWhole) (arg7 : Memref sig .tc .vmem S512x1024 .bf16) (harg7 : arg7.IsWhole) (arg8 : Memref sig .tc .vmem S1024x512 .bf16) (harg8 : arg8.IsWhole) (arg9 : Memref sig .tc .vmem S1024x64 .bf16) (harg9 : arg9.IsWhole) (arg10 : Memref sig .tc .vmem S256x512 .f32) (harg10 : arg10.IsWhole) (arg11 : Memref sig .tc .vmem S256x64 .f32) (harg11 : arg11.IsWhole) (arg12 : Memref sig .tc .vmem S256x512 .f32) (harg12 : arg12.IsWhole) (arg13 : Memref sig .tc .vmem S256x64 .f32) (harg13 : arg13.IsWhole) (hc0 : cond0_0 i) (hc1 : ¬cond0_1 i) (x0 : Vec F S256x512 .f32) (x1 : Vec F S256x64 .f32) (x2 : Vec F S256x64 .f32) (x3 : Vec F S64x1024 .f32) (x4 : Vec F S64x1024 .f32) (x5 : Vec F S512x1024 .bf16) (x6 : Vec F S1024x512 .bf16) (x7 : Vec F S1024x64 .bf16) :
    sout0_A_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 = newS1 x1 x2 x3 x4 x7 k0_pay5 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7)]
  unfold kernelRun0_A
  dsimp only
  sl_unfold_words
  rw [View.canon_cons_unit_zero (S := S256x64) hz, View.readCov_unit_zero (S := S256x64) _ hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S256x512) hz, View.ld_unit_zero (S := S256x64) hz, View.ld_unit_zero (S := S64x1024) hz, View.ld_unit_zero (S := S512x1024) hz, View.ld_unit_zero (S := S1024x512) hz, View.ld_unit_zero (S := S1024x64) hz]
  rfl

/-- Second point of a row tile: the first accumulator ends at what it held plus the contribution. -/
theorem sB0 (c : Dev nD) (i : grid0.Coords) (arg2 : Memref sig .tc .vmem S256x512 .f32) (harg2 : arg2.IsWhole) (arg3 : Memref sig .tc .vmem S256x64 .f32) (harg3 : arg3.IsWhole) (arg4 : Memref sig .tc .vmem S256x64 .f32) (harg4 : arg4.IsWhole) (arg5 : Memref sig .tc .vmem S64x1024 .f32) (harg5 : arg5.IsWhole) (arg6 : Memref sig .tc .vmem S64x1024 .f32) (harg6 : arg6.IsWhole) (arg7 : Memref sig .tc .vmem S512x1024 .bf16) (harg7 : arg7.IsWhole) (arg8 : Memref sig .tc .vmem S1024x512 .bf16) (harg8 : arg8.IsWhole) (arg9 : Memref sig .tc .vmem S1024x64 .bf16) (harg9 : arg9.IsWhole) (arg10 : Memref sig .tc .vmem S256x512 .f32) (harg10 : arg10.IsWhole) (arg11 : Memref sig .tc .vmem S256x64 .f32) (harg11 : arg11.IsWhole) (arg12 : Memref sig .tc .vmem S256x512 .f32) (harg12 : arg12.IsWhole) (arg13 : Memref sig .tc .vmem S256x64 .f32) (harg13 : arg13.IsWhole) (hc0 : ¬cond0_0 i) (hc1 : cond0_1 i) (x0 : Vec F S256x512 .f32) (x1 : Vec F S256x64 .f32) (x2 : Vec F S256x64 .f32) (x3 : Vec F S64x1024 .f32) (x4 : Vec F S64x1024 .f32) (x5 : Vec F S512x1024 .bf16) (x6 : Vec F S1024x512 .bf16) (x7 : Vec F S1024x64 .bf16) (xs0 : Vec F S256x512 .f32) (xs1 : Vec F S256x64 .f32) :
    sout0_B_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1 = newS0 x0 x1 x2 x3 x4 x5 x6 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1)]
  unfold kernelRun0_B
  dsimp only
  sl_unfold_words
  rw [View.canon_unit_zero (S := S256x512) hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S256x512) hz, View.ld_unit_zero (S := S256x64) hz, View.ld_unit_zero (S := S64x1024) hz, View.ld_unit_zero (S := S512x1024) hz, View.ld_unit_zero (S := S1024x512) hz, View.ld_unit_zero (S := S1024x64) hz]
  rfl

/-- Second point of a row tile: the second accumulator likewise. -/
theorem sB1 (c : Dev nD) (i : grid0.Coords) (arg2 : Memref sig .tc .vmem S256x512 .f32) (harg2 : arg2.IsWhole) (arg3 : Memref sig .tc .vmem S256x64 .f32) (harg3 : arg3.IsWhole) (arg4 : Memref sig .tc .vmem S256x64 .f32) (harg4 : arg4.IsWhole) (arg5 : Memref sig .tc .vmem S64x1024 .f32) (harg5 : arg5.IsWhole) (arg6 : Memref sig .tc .vmem S64x1024 .f32) (harg6 : arg6.IsWhole) (arg7 : Memref sig .tc .vmem S512x1024 .bf16) (harg7 : arg7.IsWhole) (arg8 : Memref sig .tc .vmem S1024x512 .bf16) (harg8 : arg8.IsWhole) (arg9 : Memref sig .tc .vmem S1024x64 .bf16) (harg9 : arg9.IsWhole) (arg10 : Memref sig .tc .vmem S256x512 .f32) (harg10 : arg10.IsWhole) (arg11 : Memref sig .tc .vmem S256x64 .f32) (harg11 : arg11.IsWhole) (arg12 : Memref sig .tc .vmem S256x512 .f32) (harg12 : arg12.IsWhole) (arg13 : Memref sig .tc .vmem S256x64 .f32) (harg13 : arg13.IsWhole) (hc0 : ¬cond0_0 i) (hc1 : cond0_1 i) (x0 : Vec F S256x512 .f32) (x1 : Vec F S256x64 .f32) (x2 : Vec F S256x64 .f32) (x3 : Vec F S64x1024 .f32) (x4 : Vec F S64x1024 .f32) (x5 : Vec F S512x1024 .bf16) (x6 : Vec F S1024x512 .bf16) (x7 : Vec F S1024x64 .bf16) (xs0 : Vec F S256x512 .f32) (xs1 : Vec F S256x64 .f32) :
    sout0_B_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1 = newS1 x1 x2 x3 x4 x7 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1)]
  unfold kernelRun0_B
  dsimp only
  sl_unfold_words
  rw [View.canon_unit_zero (S := S256x64) hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S256x512) hz, View.ld_unit_zero (S := S256x64) hz, View.ld_unit_zero (S := S64x1024) hz, View.ld_unit_zero (S := S512x1024) hz, View.ld_unit_zero (S := S1024x512) hz, View.ld_unit_zero (S := S1024x64) hz]
  rfl

/-- Second point of a row tile: the first output's block is the residual block plus the finished accumulator. -/
theorem oB8 (c : Dev nD) (i : grid0.Coords) (arg2 : Memref sig .tc .vmem S256x512 .f32) (harg2 : arg2.IsWhole) (arg3 : Memref sig .tc .vmem S256x64 .f32) (harg3 : arg3.IsWhole) (arg4 : Memref sig .tc .vmem S256x64 .f32) (harg4 : arg4.IsWhole) (arg5 : Memref sig .tc .vmem S64x1024 .f32) (harg5 : arg5.IsWhole) (arg6 : Memref sig .tc .vmem S64x1024 .f32) (harg6 : arg6.IsWhole) (arg7 : Memref sig .tc .vmem S512x1024 .bf16) (harg7 : arg7.IsWhole) (arg8 : Memref sig .tc .vmem S1024x512 .bf16) (harg8 : arg8.IsWhole) (arg9 : Memref sig .tc .vmem S1024x64 .bf16) (harg9 : arg9.IsWhole) (arg10 : Memref sig .tc .vmem S256x512 .f32) (harg10 : arg10.IsWhole) (arg11 : Memref sig .tc .vmem S256x64 .f32) (harg11 : arg11.IsWhole) (arg12 : Memref sig .tc .vmem S256x512 .f32) (harg12 : arg12.IsWhole) (arg13 : Memref sig .tc .vmem S256x64 .f32) (harg13 : arg13.IsWhole) (hc0 : ¬cond0_0 i) (hc1 : cond0_1 i) (x0 : Vec F S256x512 .f32) (x1 : Vec F S256x64 .f32) (x2 : Vec F S256x64 .f32) (x3 : Vec F S64x1024 .f32) (x4 : Vec F S64x1024 .f32) (x5 : Vec F S512x1024 .bf16) (x6 : Vec F S1024x512 .bf16) (x7 : Vec F S1024x64 .bf16) (xs0 : Vec F S256x512 .f32) (xs1 : Vec F S256x64 .f32) :
    out0_B_8 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1 = k0_pay2 x0 (newS0 x0 x1 x2 x3 x4 x5 x6 xs0) := by
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1)]
  unfold kernelRun0_B
  dsimp only
  sl_unfold_words
  rw [View.canon_unit_zero (S := S256x512) hz, View.readCov_unit_zero (S := S256x512) _ hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S256x512) hz, View.ld_unit_zero (S := S256x64) hz, View.ld_unit_zero (S := S64x1024) hz, View.ld_unit_zero (S := S512x1024) hz, View.ld_unit_zero (S := S1024x512) hz, View.ld_unit_zero (S := S1024x64) hz]
  rfl

/-- Second point of a row tile: the second output's block likewise. -/
theorem oB9 (c : Dev nD) (i : grid0.Coords) (arg2 : Memref sig .tc .vmem S256x512 .f32) (harg2 : arg2.IsWhole) (arg3 : Memref sig .tc .vmem S256x64 .f32) (harg3 : arg3.IsWhole) (arg4 : Memref sig .tc .vmem S256x64 .f32) (harg4 : arg4.IsWhole) (arg5 : Memref sig .tc .vmem S64x1024 .f32) (harg5 : arg5.IsWhole) (arg6 : Memref sig .tc .vmem S64x1024 .f32) (harg6 : arg6.IsWhole) (arg7 : Memref sig .tc .vmem S512x1024 .bf16) (harg7 : arg7.IsWhole) (arg8 : Memref sig .tc .vmem S1024x512 .bf16) (harg8 : arg8.IsWhole) (arg9 : Memref sig .tc .vmem S1024x64 .bf16) (harg9 : arg9.IsWhole) (arg10 : Memref sig .tc .vmem S256x512 .f32) (harg10 : arg10.IsWhole) (arg11 : Memref sig .tc .vmem S256x64 .f32) (harg11 : arg11.IsWhole) (arg12 : Memref sig .tc .vmem S256x512 .f32) (harg12 : arg12.IsWhole) (arg13 : Memref sig .tc .vmem S256x64 .f32) (harg13 : arg13.IsWhole) (hc0 : ¬cond0_0 i) (hc1 : cond0_1 i) (x0 : Vec F S256x512 .f32) (x1 : Vec F S256x64 .f32) (x2 : Vec F S256x64 .f32) (x3 : Vec F S64x1024 .f32) (x4 : Vec F S64x1024 .f32) (x5 : Vec F S512x1024 .bf16) (x6 : Vec F S1024x512 .bf16) (x7 : Vec F S1024x64 .bf16) (xs0 : Vec F S256x512 .f32) (xs1 : Vec F S256x64 .f32) :
    out0_B_9 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1 = k0_pay3 x1 (newS1 x1 x2 x3 x4 x7 xs1) := by
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1)]
  unfold kernelRun0_B
  dsimp only
  sl_unfold_words
  rw [View.canon_unit_zero (S := S256x64) hz, View.readCov_unit_zero (S := S256x64) _ hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S256x512) hz, View.ld_unit_zero (S := S256x64) hz, View.ld_unit_zero (S := S64x1024) hz, View.ld_unit_zero (S := S512x1024) hz, View.ld_unit_zero (S := S1024x512) hz, View.ld_unit_zero (S := S1024x64) hz]
  rfl

end Cert.KernelIdeal.Pieces

end
-- ==== Proof.LibKeepdims.lean ====
/-
  Row sums kept as a column, read at an index given by coordinates.

  `jnp.sum(x, axis=1, keepdims=True)` of a matrix `[a, b]` is, in a kernel, a lane reduction `[a, b] → [a]`
  followed by a cast `[a] → [a, 1]`; adding such a column to an `[a, c]` matrix broadcasts it `[a, 1] → [a, c]`.
  Read at `(p, q)` the composite is the sum over the row `p`, whatever `q`: the three lemmas below are the three steps,
  each with its indices written by coordinates, and `rowSum_bcast_apply` / `rowSum_bcastRow_apply` are the two composites
  a pairwise-distance kernel uses (the row norms of the left operand down the columns, those of the right operand
  along the rows).
-/
import Idealize.ShloMosaic.Lib.ValueLayout
import Idealize.ShloMosaic.PureOps.Ideal.Laws

noncomputable section

open scoped BigOperators

namespace Idealize.ShloMosaic.ValueIdx

open Idealize.ShloMosaic

section Layout
variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- A lane reduction by addition of an `[a, b]` matrix along its rows, at the ideal values and read at row `r`: the sum
    over the row. The accumulator's word is the neutral one, so it contributes nothing. -/
theorem multiReduction_add_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => congrArg src (funext fun ax => Fin.ext ?_)
  match ax with
  | ⟨0, _⟩ => rfl
  | ⟨1, _⟩ => rfl

/-- Row sums kept as a column and broadcast along the rows: at `(p, c)`, the sum over row `p`. -/
theorem rowSum_bcast_apply {a b n : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) (hb : (⟨2, ![a, 1]⟩ : Shape).Broadcasts ⟨2, ![a, n]⟩)
    (p : Fin a) (c : Fin n) :
    broadcastTo ⟨2, ![a, n]⟩ (shapeCast ⟨2, ![a, 1]⟩ (multiReduction .add [1] ⟨1, ![a]⟩ src acc h hφ hacc) hc) hb (ix2 p c)
      = ∑ k : Fin b, src (ix2 p k) :=
  (broadcastTo_a1_ab_apply _ hb p c).trans
    ((shapeCast_a_a1_apply _ hc p 0).trans (multiReduction_add_rows_apply src acc h hφ hacc p))

/-- Row sums laid out as one row `[1, a]` and broadcast down the columns: at `(p, c)`, the sum over row `c` of the
    source. -/
theorem rowSum_bcastRow_apply {a b n : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hc : (⟨1, ![a]⟩ : Shape).ShapeCasts ⟨2, ![1, a]⟩) (hb : (⟨2, ![1, a]⟩ : Shape).Broadcasts ⟨2, ![n, a]⟩)
    (p : Fin n) (c : Fin a) :
    broadcastTo ⟨2, ![n, a]⟩ (shapeCast ⟨2, ![1, a]⟩ (multiReduction .add [1] ⟨1, ![a]⟩ src acc h hφ hacc) hc) hb (ix2 p c)
      = ∑ k : Fin b, src (ix2 c k) :=
  (broadcastTo_1b_ab_apply _ hb p c).trans
    ((shapeCast_a_1a_apply _ hc 0 c).trans (multiReduction_add_rows_apply src acc h hφ hacc c))

end Idealize.ShloMosaic.ValueIdx

end
-- ==== Proof.GateBlock.lean ====
/-
  One block of the gate, over the extended reals.

  For a row `r` of a block of `tc = x_imag · pos_freq` ([256, 64]) and a column `h` of the blocks of `w` and `b`
  ([64, 1024]) the kernel adds, first to last over `p = 0 … 63`, the cosines `cos (tc(r,p) · w(p,h) + b(p,h))` to a
  zero word: an ordered chain `((a + c₀) + c₁) + … + c₆₃`. This module names the chain (`chain`), shows that it is
  `a + Σ_p c_p` (addition of extended reals is associative), and reads the two layout steps each summand is built
  from — column `p` of `tc` spread along the rows' lanes, row `p` of `w` (or `b`) spread down the rows — at an index.
-/
import Idealize.ShloMosaic.Lib.ValueIdx
import Idealize.ShloMosaic.Lib.ValueLayout
import Idealize.ShloMosaic.Lib.Pipeline.Value
import Idealize.ShloMosaic.PureOps.Ideal.Laws
import proofs.«158703_j16827681866028_2_alg».proof.Proof.LibKeepdims

noncomputable section

open scoped BigOperators

namespace Cert.GateBlock

open Idealize.ShloMosaic Idealize.ShloMosaic.ValueIdx

/-- A natural number as a position among 64 (the numbers below 64 are themselves). -/
def fin64 (p : ℕ) : Fin 64 := ⟨p % 64, Nat.mod_lt _ (by decide)⟩

theorem fin64_val (k : Fin 64) : fin64 k.val = k := Fin.ext (Nat.mod_eq_of_lt k.isLt)

theorem fin64_of_lt {p : ℕ} (hp : p < 64) : (fin64 p).val = p := Nat.mod_eq_of_lt hp

/-- The ordered chain `((a + f s) + f (s+1)) + … + f (s+n-1)`. -/
def chain (f : ℕ → EReal) (a : EReal) (s : ℕ) : ℕ → EReal
  | 0 => a
  | n + 1 => chain f a s n + f (s + n)

/-- A chain continued is one chain. -/
theorem chain_chain (f : ℕ → EReal) (a : EReal) (s n m : ℕ) :
    chain f (chain f a s n) (s + n) m = chain f a s (n + m) := by
  induction m with
  | zero => rfl
  | succ m ih => show chain f (chain f a s n) (s + n) m + f (s + n + m) = chain f a s (n + m) + f (s + (n + m))
                 rw [ih, Nat.add_assoc]

/-- A chain from position 0 is its first word plus the sum of its summands. -/
theorem chain_eq_sum (f : ℕ → EReal) (a : EReal) (n : ℕ) : chain f a 0 n = a + ∑ k : Fin n, f k.val := by
  induction n with
  | zero => simp [chain]
  | succ n ih =>
    show chain f a 0 n + f (0 + n) = _
    rw [ih, Fin.sum_univ_castSucc, Nat.zero_add, add_assoc]
    rfl

/-- One summand: the cosine at row `r`, column `h`, position `p`. -/
def cterm (T : (⟨2, ![256, 64]⟩ : Shape).Idx → EReal) (w b : (⟨2, ![64, 1024]⟩ : Shape).Idx → EReal)
    (r : Fin 256) (h : Fin 1024) (p : ℕ) : EReal :=
  Ideal.cos (T (ix2 r (fin64 p)) * w (ix2 (fin64 p) h) + b (ix2 (fin64 p) h))

section Layout
variable {α : Type}

/-- Column `p` of a [256, 64] block, spread over 1024 lanes, reads at `(r, h)` the block at `(r, p)`. -/
theorem col_read (v : (⟨2, ![256, 64]⟩ : Shape).Idx → α) (p : ℕ)
    (hs : (⟨2, ![256, 64]⟩ : Shape).Slices ![0, p] ⟨2, ![256, 1]⟩)
    (hb : (⟨2, ![256, 1]⟩ : Shape).Broadcasts ⟨2, ![256, 1024]⟩) (r : Fin 256) (h : Fin 1024) :
    broadcastTo ⟨2, ![256, 1024]⟩ (extractStridedSlice ⟨2, ![256, 1]⟩ ![0, p] v hs) hb (ix2 r h)
      = v (ix2 r (fin64 p)) := by
  have hp : p < 64 := by
    obtain ⟨_, hle⟩ := hs
    have := hle 1
    change p + 1 ≤ 64 at this
    omega
  refine (broadcastTo_a1_ab_apply _ hb r h).trans ?_
  exact slice2_axis1_apply p v hs r 0 (fin64 p) (by rw [fin64_of_lt hp]; rfl)

/-- Row `p` of a [64, 1024] block, as a [1, 1024] row, reads at `(0, h)` the block at `(p, h)`. -/
theorem row_slice_read (v : (⟨2, ![64, 1024]⟩ : Shape).Idx → α) (p : ℕ)
    (hs : (⟨2, ![64, 1024]⟩ : Shape).Slices ![p, 0] ⟨2, ![1, 1024]⟩) (h : Fin 1024) :
    extractStridedSlice ⟨2, ![1, 1024]⟩ ![p, 0] v hs (ix2 (0 : Fin 1) h) = v (ix2 (fin64 p) h) := by
  have hp : p < 64 := by
    obtain ⟨_, hle⟩ := hs
    have := hle 0
    change p + 1 ≤ 64 at this
    omega
  exact slice2_axis0_apply p v hs 0 h (fin64 p) (by rw [fin64_of_lt hp]; rfl)

/-- Row `p` of a [64, 1024] block, spread down 256 rows, reads at `(r, h)` the block at `(p, h)`. -/
theorem row_read (v : (⟨2, ![64, 1024]⟩ : Shape).Idx → α) (p : ℕ)
    (hs : (⟨2, ![64, 1024]⟩ : Shape).Slices ![p, 0] ⟨2, ![1, 1024]⟩)
    (hb : (⟨2, ![1, 1024]⟩ : Shape).Broadcasts ⟨2, ![256, 1024]⟩) (r : Fin 256) (h : Fin 1024) :
    broadcastTo ⟨2, ![256, 1024]⟩ (extractStridedSlice ⟨2, ![1, 1024]⟩ ![p, 0] v hs) hb (ix2 r h)
      = v (ix2 (fin64 p) h) :=
  (broadcastTo_1b_ab_apply _ hb r h).trans (row_slice_read v p hs h)

/-- A [1, 1024] row spread down 256 rows reads at `(r, h)` the row at `h`. -/
theorem row_bcast_read (v : (⟨2, ![1, 1024]⟩ : Shape).Idx → α)
    (hb : (⟨2, ![1, 1024]⟩ : Shape).Broadcasts ⟨2, ![256, 1024]⟩) (r : Fin 256) (h : Fin 1024) :
    broadcastTo ⟨2, ![256, 1024]⟩ v hb (ix2 r h) = v (ix2 (0 : Fin 1) h) :=
  broadcastTo_1b_ab_apply v hb r h

end Layout

/-- The cosine of a vector, read at an index. -/
theorem cos_apply {s : Shape} {φ : FTy} (x : FVec Ideal s φ) (i : s.Idx) : cos x i = Ideal.cos (x i) := rfl

end Cert.GateBlock

end
-- ==== Proof.LibMatmulNN.lean ====
/-
  A kernel's matrix product `A · B` of an `[M, K]` by a `[K, N]` operand — the LAST axis of the left operand contracted
  with the FIRST axis of the right one, no batch axes (jnp `x @ W`, `jnp.dot(x, W)`; dimension numbers `[1] x [0]`,
  free axes `[0]` and `[1]`) — into a zero accumulator, over the extended reals: read at `(i, j)` it is the sum over
  `k : Fin K` of `A(i, k) · B(k, j)`. Stated for ANY record of dimension numbers with those six lists, each hypothesis
  closed by `rfl` at a printed record.
-/
import Idealize.ShloMosaic.Lib.ValueIdx
import Idealize.ShloMosaic.PureOps.Ideal.Laws

noncomputable section

open scoped BigOperators

namespace Cert.LibMatmulNN

open Idealize.ShloMosaic Idealize.ShloMosaic.ValueIdx

variable {M N K : Nat}

/-- Two coordinates of one index at equal positions are equal, however the positions are spelt. -/
theorem coord_congr {s : Shape} (j : s.Idx) (a b : Nat) (ha : a < s.rank) (hb : b < s.rank) (e : a = b) :
    (j ⟨a, ha⟩).val = (j ⟨b, hb⟩).val := by
  subst e; rfl

/-- The left operand's row is the result's row. -/
theorem lhsIdx_row (d : DotDims ⟨2, ![M, K]⟩ ⟨2, ![K, N]⟩ ⟨2, ![M, N]⟩)
    (hlb : d.lhsBatch = []) (hln : d.lhsNonContracting = [0])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  rw [Fin.val_cast]
  exact coord_congr j _ 0 _ (by show 0 < 2; omega) (by rw [hlb, hln]; rfl)

/-- The right operand's column is the result's column. -/
theorem rhsIdx_col (d : DotDims ⟨2, ![M, K]⟩ ⟨2, ![K, N]⟩ ⟨2, ![M, N]⟩)
    (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  rw [Fin.val_cast]
  exact coord_congr j _ 1 _ (by show 1 < 2; omega) (by rw [hlb, hln, hrn]; rfl)

/-- The contraction ranges over one axis, of extent `K`. -/
theorem contr_rank (d : DotDims ⟨2, ![M, K]⟩ ⟨2, ![K, N]⟩ ⟨2, ![M, N]⟩) (hlc : d.lhsContracting = [1]) :
    d.contr.rank = 1 := by
  rw [d.rank_contr, hlc]; rfl

theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  rw [d.size_contr 0 (by rw [hlc]; exact Nat.one_pos), List.getElem_of_eq hlc]
  rfl

/-- `A · B` into a zero accumulator, at `(i, j)`, is `Σ_k A[i, k] · B[k, j]`. -/
theorem matmul_nn_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (A : FVec Ideal ⟨2, ![M, K]⟩ φ₁) (B : FVec Ideal ⟨2, ![K, N]⟩ φ₂)
    (i : Fin M) (j : Fin N) :
    matmul d prec A B (constant ⟨2, ![M, N]⟩ .f32 0x00000000#32) (ix2 i j) = ∑ k : Fin K, A (ix2 i k) * B (ix2 k j) := by
  have hr := contr_rank d hlc
  have hs := contr_size d hlc
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact lhsIdx_row d hlb hln _ _
    | ⟨1, _⟩ => exact (d.lhsIdx_val_of_single hlc _ _).trans hk)
  have er : d.rhsIdx (ix2 i j) ((contrEquiv1 d K hr hs).symm k) = ix2 k j := funext fun a => Fin.ext (by
    match a with
    | ⟨0, _⟩ => exact (d.rhsIdx_val_of_single hrc _ _).trans hk
    | ⟨1, _⟩ => exact rhsIdx_col d hlb hrb hln hrn _ _)
  rw [el, er]

end Cert.LibMatmulNN

end
-- ==== Proof.BodyMath.lean ====
/-
  The body's arithmetic over the extended reals, read at an index.

  At row `r` and column `h` of a block the gate is `(0 + Σ_p cos (x_imag(r,p) · pos_freq(r,p) · w(p,h) + b(p,h))) · 1/8`
  (the zero and the eighth kept as the words the kernel writes); the value block is the matrix product
  `Σ_e x_real(r,e) · W_up(e,h)`; and a grid point adds to the accumulators the products of `value · gate` (resp. `gate`)
  with the down projections' blocks. Each stretch of the unrolled sum continues the ordered chain of the one before
  (`GateBlock.chain`), and a chain is its first word plus the sum.
-/
import proofs.«158703_j16827681866028_2_alg».proof.Proof.Composite
import proofs.«158703_j16827681866028_2_alg».proof.Proof.GateBlock
import proofs.«158703_j16827681866028_2_alg».proof.Proof.LibMatmulNN

noncomputable section

open scoped BigOperators

namespace Cert.KernelIdeal.Body

open Cert.KernelIdeal Cert.KernelIdeal.Gen Cert.GateBlock Cert.LibMatmulNN
open Idealize.ShloMosaic Idealize.ShloMosaic.ValueIdx

/-- `tc = x_imag · pos_freq`, element by element. -/
theorem pay7_at (x1 x2 : Vec Ideal S256x64 .f32) (r : Fin 256) (k : Fin 64) :
    k0_pay7 (F := Ideal) x1 x2 (ix2 r k) = x1 (ix2 r k) * x2 (ix2 r k) := by
  unfold k0_pay7
  simp only [shapeCast_self, mulf_apply]

/-- Positions 0 and 1 added to the zero word. -/
theorem pay8_at (x1 x2 : Vec Ideal S256x64 .f32) (w b : Vec Ideal S64x1024 .f32) (r : Fin 256) (h : Fin 1024) :
    k0_pay8 (F := Ideal) x1 x2 w b (ix2 r h)
      = chain (cterm (k0_pay7 (F := Ideal) x1 x2) w b r h) (Ideal.ofBits .f32 0x00000000#32) 0 2 := by
  unfold k0_pay8
  generalize k0_pay7 (F := Ideal) x1 x2 = T
  simp only [addf_apply, mulf_apply, cos_apply, col_read, row_read, broadcast_apply]
  rfl

/-- Positions 2 … 7 added to a partial sum. -/
theorem pay12_at (x1 x2 : Vec Ideal S256x64 .f32) (w b : Vec Ideal S64x1024 .f32) (acc : FVec Ideal S256x1024 .f32)
    (r : Fin 256) (h : Fin 1024) :
    k0_pay12 (F := Ideal) (k0_pay7 x1 x2) w b acc (k0_pay9 b) (k0_pay10 x1 x2) (k0_pay11 w) (ix2 r h)
      = chain (cterm (k0_pay7 (F := Ideal) x1 x2) w b r h) (acc (ix2 r h)) 2 6 := by
  unfold k0_pay12 k0_pay9 k0_pay10 k0_pay11
  generalize k0_pay7 (F := Ideal) x1 x2 = T
  simp only [addf_apply, mulf_apply, cos_apply, col_read, row_read, row_bcast_read, row_slice_read]
  rfl

/-- Positions 8 … 13 added to a partial sum. -/
theorem pay16_at (T : FVec Ideal S256x64 .f32) (w b : Vec Ideal S64x1024 .f32) (acc : FVec Ideal S256x1024 .f32)
    (r : Fin 256) (h : Fin 1024) :
    k0_pay16 (F := Ideal) T w b acc (k0_pay13 b) (k0_pay14 T) (k0_pay15 w) (ix2 r h)
      = chain (cterm T w b r h) (acc (ix2 r h)) 8 6 := by
  unfold k0_pay16 k0_pay13 k0_pay14 k0_pay15
  simp only [addf_apply, mulf_apply, cos_apply, col_read, row_read, row_bcast_read, row_slice_read]
  rfl

/-- Positions 14 … 19 added to a partial sum. -/
theorem pay20_at (T : FVec Ideal S256x64 .f32) (w b : Vec Ideal S64x1024 .f32) (acc : FVec Ideal S256x1024 .f32)
    (r : Fin 256) (h : Fin 1024) :
    k0_pay20 (F := Ideal) T w b acc (k0_pay17 b) (k0_pay18 T) (k0_pay19 w) (ix2 r h)
      = chain (cterm T w b r h) (acc (ix2 r h)) 14 6 := by
  unfold k0_pay20 k0_pay17 k0_pay18 k0_pay19
  simp only [addf_apply, mulf_apply, cos_apply, col_read, row_read, row_bcast_read, row_slice_read]
  rfl

/-- Positions 20 … 25 added to a partial sum. -/
theorem pay24_at (T : FVec Ideal S256x64 .f32) (w b : Vec Ideal S64x1024 .f32) (acc : FVec Ideal S256x1024 .f32)
    (r : Fin 256) (h : Fin 1024) :
    k0_pay24 (F := Ideal) T w b acc (k0_pay21 b) (k0_pay22 T) (k0_pay23 w) (ix2 r h)
      = chain (cterm T w b r h) (acc (ix2 r h)) 20 6 := by
  unfold k0_pay24 k0_pay21 k0_pay22 k0_pay23
  simp only [addf_apply, mulf_apply, cos_apply, col_read, row_read, row_bcast_read, row_slice_read]
  rfl

/-- Positions 26 … 31 added to a partial sum. -/
theorem pay28_at (T : FVec Ideal S256x64 .f32) (w b : Vec Ideal S64x1024 .f32) (acc : FVec Ideal S256x1024 .f32)
    (r : Fin 256) (h : Fin 1024) :
    k0_pay28 (F := Ideal) T w b acc (k0_pay25 b) (k0_pay26 T) (k0_pay27 w) (ix2 r h)
      = chain (cterm T w b r h) (acc (ix2 r h)) 26 6 := by
  unfold k0_pay28 k0_pay25 k0_pay26 k0_pay27
  simp only [addf_apply, mulf_apply, cos_apply, col_read, row_read, row_bcast_read, row_slice_read]
  rfl

/-- Positions 32 … 37 added to a partial sum. -/
theorem pay32_at (T : FVec Ideal S256x64 .f32) (w b : Vec Ideal S64x1024 .f32) (acc : FVec Ideal S256x1024 .f32)
    (r : Fin 256) (h : Fin 1024) :
    k0_pay32 (F := Ideal) T w b acc (k0_pay29 b) (k0_pay30 T) (k0_pay31 w) (ix2 r h)
      = chain (cterm T w b r h) (acc (ix2 r h)) 32 6 := by
  unfold k0_pay32 k0_pay29 k0_pay30 k0_pay31
  simp only [addf_apply, mulf_apply, cos_apply, col_read, row_read, row_bcast_read, row_slice_read]
  rfl

/-- Positions 38 … 43 added to a partial sum. -/
theorem pay36_at (T : FVec Ideal S256x64 .f32) (w b : Vec Ideal S64x1024 .f32) (acc : FVec Ideal S256x1024 .f32)
    (r : Fin 256) (h : Fin 1024) :
    k0_pay36 (F := Ideal) T w b acc (k0_pay33 b) (k0_pay34 T) (k0_pay35 w) (ix2 r h)
      = chain (cterm T w b r h) (acc (ix2 r h)) 38 6 := by
  unfold k0_pay36 k0_pay33 k0_pay34 k0_pay35
  simp only [addf_apply, mulf_apply, cos_apply, col_read, row_read, row_bcast_read, row_slice_read]
  rfl

/-- Positions 44 … 49 added to a partial sum. -/
theorem pay40_at (T : FVec Ideal S256x64 .f32) (w b : Vec Ideal S64x1024 .f32) (acc : FVec Ideal S256x1024 .f32)
    (r : Fin 256) (h : Fin 1024) :
    k0_pay40 (F := Ideal) T w b acc (k0_pay37 b) (k0_pay38 T) (k0_pay39 w) (ix2 r h)
      = chain (cterm T w b r h) (acc (ix2 r h)) 44 6 := by
  unfold k0_pay40 k0_pay37 k0_pay38 k0_pay39
  simp only [addf_apply, mulf_apply, cos_apply, col_read, row_read, row_bcast_read, row_slice_read]
  rfl

/-- Positions 50 … 55 added to a partial sum. -/
theorem pay44_at (T : FVec Ideal S256x64 .f32) (w b : Vec Ideal S64x1024 .f32) (acc : FVec Ideal S256x1024 .f32)
    (r : Fin 256) (h : Fin 1024) :
    k0_pay44 (F := Ideal) T w b acc (k0_pay41 b) (k0_pay42 T) (k0_pay43 w) (ix2 r h)
      = chain (cterm T w b r h) (acc (ix2 r h)) 50 6 := by
  unfold k0_pay44 k0_pay41 k0_pay42 k0_pay43
  simp only [addf_apply, mulf_apply, cos_apply, col_read, row_read, row_bcast_read, row_slice_read]
  rfl

/-- Positions 56 … 61 added to a partial sum. -/
theorem pay48_at (T : FVec Ideal S256x64 .f32) (w b : Vec Ideal S64x1024 .f32) (acc : FVec Ideal S256x1024 .f32)
    (r : Fin 256) (h : Fin 1024) :
    k0_pay48 (F := Ideal) T w b acc (k0_pay45 b) (k0_pay46 T) (k0_pay47 w) (ix2 r h)
      = chain (cterm T w b r h) (acc (ix2 r h)) 56 6 := by
  unfold k0_pay48 k0_pay45 k0_pay46 k0_pay47
  simp only [addf_apply, mulf_apply, cos_apply, col_read, row_read, row_bcast_read, row_slice_read]
  rfl

/-- Positions 62 and 63 added to a partial sum, and the whole scaled by the energy scale's word. -/
theorem pay52_at (T : FVec Ideal S256x64 .f32) (w b : Vec Ideal S64x1024 .f32) (acc : FVec Ideal S256x1024 .f32)
    (r : Fin 256) (h : Fin 1024) :
    k0_pay52 (F := Ideal) T w b acc (k0_pay49 b) (k0_pay50 T) (k0_pay51 w) (ix2 r h)
      = chain (cterm T w b r h) (acc (ix2 r h)) 62 2 * Ideal.ofBits .f32 0x3E000000#32 := by
  unfold k0_pay52 k0_pay49 k0_pay50 k0_pay51
  simp only [addf_apply, mulf_apply, cos_apply, col_read, row_read, row_bcast_read, row_slice_read, broadcast_apply]
  rfl

/-! ## The partial sums are chains from the zero word -/

theorem acc1_at (x1 x2 : Vec Ideal S256x64 .f32) (w b : Vec Ideal S64x1024 .f32) (r : Fin 256) (h : Fin 1024) :
    acc1 (F := Ideal) x1 x2 w b (ix2 r h)
      = chain (cterm (k0_pay7 (F := Ideal) x1 x2) w b r h) (Ideal.ofBits .f32 0x00000000#32) 0 2 :=
  pay8_at x1 x2 w b r h

theorem acc2_at (x1 x2 : Vec Ideal S256x64 .f32) (w b : Vec Ideal S64x1024 .f32) (r : Fin 256) (h : Fin 1024) :
    acc2 (F := Ideal) x1 x2 w b (ix2 r h)
      = chain (cterm (k0_pay7 (F := Ideal) x1 x2) w b r h) (Ideal.ofBits .f32 0x00000000#32) 0 8 := by
  unfold acc2
  rw [pay12_at x1 x2 w b (acc1 x1 x2 w b) r h, acc1_at]
  exact chain_chain _ _ 0 2 6

theorem acc3_at (x1 x2 : Vec Ideal S256x64 .f32) (w b : Vec Ideal S64x1024 .f32) (r : Fin 256) (h : Fin 1024) :
    acc3 (F := Ideal) x1 x2 w b (ix2 r h)
      = chain (cterm (k0_pay7 (F := Ideal) x1 x2) w b r h) (Ideal.ofBits .f32 0x00000000#32) 0 14 := by
  unfold acc3
  rw [pay16_at (k0_pay7 x1 x2) w b (acc2 x1 x2 w b) r h, acc2_at]
  exact chain_chain _ _ 0 8 6

theorem acc4_at (x1 x2 : Vec Ideal S256x64 .f32) (w b : Vec Ideal S64x1024 .f32) (r : Fin 256) (h : Fin 1024) :
    acc4 (F := Ideal) x1 x2 w b (ix2 r h)
      = chain (cterm (k0_pay7 (F := Ideal) x1 x2) w b r h) (Ideal.ofBits .f32 0x00000000#32) 0 20 := by
  unfold acc4
  rw [pay20_at (k0_pay7 x1 x2) w b (acc3 x1 x2 w b) r h, acc3_at]
  exact chain_chain _ _ 0 14 6

theorem acc5_at (x1 x2 : Vec Ideal S256x64 .f32) (w b : Vec Ideal S64x1024 .f32) (r : Fin 256) (h : Fin 1024) :
    acc5 (F := Ideal) x1 x2 w b (ix2 r h)
      = chain (cterm (k0_pay7 (F := Ideal) x1 x2) w b r h) (Ideal.ofBits .f32 0x00000000#32) 0 26 := by
  unfold acc5
  rw [pay24_at (k0_pay7 x1 x2) w b (acc4 x1 x2 w b) r h, acc4_at]
  exact chain_chain _ _ 0 20 6

theorem acc6_at (x1 x2 : Vec Ideal S256x64 .f32) (w b : Vec Ideal S64x1024 .f32) (r : Fin 256) (h : Fin 1024) :
    acc6 (F := Ideal) x1 x2 w b (ix2 r h)
      = chain (cterm (k0_pay7 (F := Ideal) x1 x2) w b r h) (Ideal.ofBits .f32 0x00000000#32) 0 32 := by
  unfold acc6
  rw [pay28_at (k0_pay7 x1 x2) w b (acc5 x1 x2 w b) r h, acc5_at]
  exact chain_chain _ _ 0 26 6

theorem acc7_at (x1 x2 : Vec Ideal S256x64 .f32) (w b : Vec Ideal S64x1024 .f32) (r : Fin 256) (h : Fin 1024) :
    acc7 (F := Ideal) x1 x2 w b (ix2 r h)
      = chain (cterm (k0_pay7 (F := Ideal) x1 x2) w b r h) (Ideal.ofBits .f32 0x00000000#32) 0 38 := by
  unfold acc7
  rw [pay32_at (k0_pay7 x1 x2) w b (acc6 x1 x2 w b) r h, acc6_at]
  exact chain_chain _ _ 0 32 6

theorem acc8_at (x1 x2 : Vec Ideal S256x64 .f32) (w b : Vec Ideal S64x1024 .f32) (r : Fin 256) (h : Fin 1024) :
    acc8 (F := Ideal) x1 x2 w b (ix2 r h)
      = chain (cterm (k0_pay7 (F := Ideal) x1 x2) w b r h) (Ideal.ofBits .f32 0x00000000#32) 0 44 := by
  unfold acc8
  rw [pay36_at (k0_pay7 x1 x2) w b (acc7 x1 x2 w b) r h, acc7_at]
  exact chain_chain _ _ 0 38 6

theorem acc9_at (x1 x2 : Vec Ideal S256x64 .f32) (w b : Vec Ideal S64x1024 .f32) (r : Fin 256) (h : Fin 1024) :
    acc9 (F := Ideal) x1 x2 w b (ix2 r h)
      = chain (cterm (k0_pay7 (F := Ideal) x1 x2) w b r h) (Ideal.ofBits .f32 0x00000000#32) 0 50 := by
  unfold acc9
  rw [pay40_at (k0_pay7 x1 x2) w b (acc8 x1 x2 w b) r h, acc8_at]
  exact chain_chain _ _ 0 44 6

theorem acc10_at (x1 x2 : Vec Ideal S256x64 .f32) (w b : Vec Ideal S64x1024 .f32) (r : Fin 256) (h : Fin 1024) :
    acc10 (F := Ideal) x1 x2 w b (ix2 r h)
      = chain (cterm (k0_pay7 (F := Ideal) x1 x2) w b r h) (Ideal.ofBits .f32 0x00000000#32) 0 56 := by
  unfold acc10
  rw [pay44_at (k0_pay7 x1 x2) w b (acc9 x1 x2 w b) r h, acc9_at]
  exact chain_chain _ _ 0 50 6

theorem acc11_at (x1 x2 : Vec Ideal S256x64 .f32) (w b : Vec Ideal S64x1024 .f32) (r : Fin 256) (h : Fin 1024) :
    acc11 (F := Ideal) x1 x2 w b (ix2 r h)
      = chain (cterm (k0_pay7 (F := Ideal) x1 x2) w b r h) (Ideal.ofBits .f32 0x00000000#32) 0 62 := by
  unfold acc11
  rw [pay48_at (k0_pay7 x1 x2) w b (acc10 x1 x2 w b) r h, acc10_at]
  exact chain_chain _ _ 0 56 6

/-! ## The gate, the value and the two accumulators -/

/-- The gate at row `r`, column `h` of a block: the zero word plus the 64 cosines, times the energy scale's word. -/
def gateAt (x1 x2 : Vec Ideal S256x64 .f32) (w b : Vec Ideal S64x1024 .f32) (r : Fin 256) (h : Fin 1024) : EReal :=
  (Ideal.ofBits .f32 0x00000000#32
      + ∑ k : Fin 64, Ideal.cos (x1 (ix2 r k) * x2 (ix2 r k) * w (ix2 k h) + b (ix2 k h)))
    * Ideal.ofBits .f32 0x3E000000#32

theorem gateBlk_at (x1 x2 : Vec Ideal S256x64 .f32) (w b : Vec Ideal S64x1024 .f32) (r : Fin 256) (h : Fin 1024) :
    gateBlk (F := Ideal) x1 x2 w b (ix2 r h) = gateAt x1 x2 w b r h := by
  unfold gateBlk gateAt
  rw [pay52_at (k0_pay7 x1 x2) w b (acc11 x1 x2 w b) r h, acc11_at]
  rw [show chain (cterm (k0_pay7 (F := Ideal) x1 x2) w b r h)
        (chain (cterm (k0_pay7 (F := Ideal) x1 x2) w b r h) (Ideal.ofBits .f32 0x00000000#32) 0 62) 62 2
      = chain (cterm (k0_pay7 (F := Ideal) x1 x2) w b r h) (Ideal.ofBits .f32 0x00000000#32) 0 64
      from chain_chain _ _ 0 62 2, chain_eq_sum]
  simp only [cterm, fin64_val, pay7_at]

/-- The value block: `x_real · W_up`, a matrix product into a zero accumulator. -/
theorem pay6_at (x0 : Vec Ideal S256x512 .f32) (x5 : Vec Ideal S512x1024 .bf16) (r : Fin 256) (h : Fin 1024) :
    k0_pay6 (F := Ideal) x0 x5 (ix2 r h) = ∑ e : Fin 512, x0 (ix2 r e) * x5 (ix2 e h) := by
  unfold k0_pay6
  simp only [shapeCast_self]
  exact matmul_nn_apply dot_S256x512_S512x1024_S256x1024_1_0_0_1_n_n rfl rfl rfl rfl rfl rfl none _ _ r h

/-- One grid point's contribution to the first accumulator. -/
theorem newS0_at (x0 : Vec Ideal S256x512 .f32) (x1 x2 : Vec Ideal S256x64 .f32) (x3 x4 : Vec Ideal S64x1024 .f32)
    (x5 : Vec Ideal S512x1024 .bf16) (x6 : Vec Ideal S1024x512 .bf16) (s0 : Vec Ideal S256x512 .f32)
    (r : Fin 256) (d : Fin 512) :
    newS0 (F := Ideal) x0 x1 x2 x3 x4 x5 x6 s0 (ix2 r d)
      = s0 (ix2 r d) + ∑ h : Fin 1024,
          ((∑ e : Fin 512, x0 (ix2 r e) * x5 (ix2 e h)) * gateAt x1 x2 x3 x4 r h) * x6 (ix2 h d) := by
  unfold newS0 k0_pay53
  simp only [shapeCast_self, addf_apply]
  rw [matmul_nn_apply dot_S256x1024_S1024x512_S256x512_1_0_0_1_n_n rfl rfl rfl rfl rfl rfl]
  refine congrArg (s0 (ix2 r d) + ·) (Finset.sum_congr rfl fun h _ => ?_)
  rw [← pay6_at, ← gateBlk_at]
  rfl

/-- One grid point's contribution to the second accumulator. -/
theorem newS1_at (x1 x2 : Vec Ideal S256x64 .f32) (x3 x4 : Vec Ideal S64x1024 .f32) (x7 : Vec Ideal S1024x64 .bf16)
    (s1 : Vec Ideal S256x64 .f32) (r : Fin 256) (p : Fin 64) :
    newS1 (F := Ideal) x1 x2 x3 x4 x7 s1 (ix2 r p)
      = s1 (ix2 r p) + ∑ h : Fin 1024, gateAt x1 x2 x3 x4 r h * x7 (ix2 h p) := by
  unfold newS1 k0_pay1 k0_pay54
  simp only [shapeCast_self, addf_apply]
  rw [matmul_nn_apply dot_S256x1024_S1024x64_S256x64_1_0_0_1_n_n rfl rfl rfl rfl rfl rfl]
  refine congrArg (s1 (ix2 r p) + ·) (Finset.sum_congr rfl fun h _ => ?_)
  rw [← gateBlk_at]
  rfl

/-- The reset stores the zero word everywhere. -/
theorem pay4_at (i : S256x512.Idx) : k0_pay4 (F := Ideal) i = Ideal.ofBits .f32 0x00000000#32 := by
  unfold k0_pay4
  simp only [shapeCast_self]
  rfl

theorem pay5_at (i : S256x64.Idx) : k0_pay5 (F := Ideal) i = Ideal.ofBits .f32 0x00000000#32 := by
  unfold k0_pay5
  simp only [shapeCast_self]
  rfl

/-- The final stores: the residual block plus the accumulator. -/
theorem pay2_at (x0 s : Vec Ideal S256x512 .f32) (i : S256x512.Idx) : k0_pay2 (F := Ideal) x0 s i = x0 i + s i := by
  unfold k0_pay2
  simp only [shapeCast_self, addf_apply]

theorem pay3_at (x1 s : Vec Ideal S256x64 .f32) (i : S256x64.Idx) : k0_pay3 (F := Ideal) x1 s i = x1 i + s i := by
  unfold k0_pay3
  simp only [shapeCast_self, addf_apply]

end Cert.KernelIdeal.Body

end
-- ==== Proof.Spec.lean ====
/-
  What the kernel computes, as one function of whole arrays over the extended reals.

  The kernel works on rows flattened over (batch, position): `A0` is `x_real` as [1024, 512], `A1` is `x_imag` as
  [1024, 64]; `P` is `pos_freq` [512, 64], read at a flat row's position `R mod 512`; `B3`, `B6`, `B7` are `W_up`,
  `W_down_real`, `W_down_imag`; `W4`, `W5` are `w` and `b`. For a flat row `R` and a hidden column `H`

    gate(R, H)  = (0 + Σ_k cos (A1(R,k) · P(R mod 512, k) · W4(k,H) + W5(k,H))) · 1/8
    value(R, H) = Σ_e A0(R,e) · B3(e,H)

  and the kernel accumulates the down projections over the two halves of the hidden axis, first half first, into a zero
  word: `out_real(R,d) = A0(R,d) + ((0 + Σ_{H<1024} …) + Σ_{1024≤H} …)`. Addition of extended reals is associative and the
  zero word is zero, so that is `A0(R,d) + Σ_H (value · gate)(R,H) · B6(H,d)` (`outRat_eq_sum`), and likewise for the second
  output.
-/
import Idealize.ShloMosaic.Lib.ValueIdx
import Idealize.ShloMosaic.PureOps.Ideal.Laws

noncomputable section

open scoped BigOperators

namespace Cert.Spec

open Idealize.ShloMosaic Idealize.ShloMosaic.ValueIdx

/-- The position of a flat row within its batch entry. -/
def prow (R : Fin 1024) : Fin 512 := ⟨R.val % 512, Nat.mod_lt _ (by decide)⟩

/-- Column `h` of half `hi` of the hidden axis. -/
def col (hi : ℕ) (h : Fin 1024) : Fin 2048 := ⟨(1024 * hi + h.val) % 2048, Nat.mod_lt _ (by decide)⟩

section
variable (A0 : (⟨2, ![1024, 512]⟩ : Shape).Idx → EReal) (A1 : (⟨2, ![1024, 64]⟩ : Shape).Idx → EReal)
  (P : (⟨2, ![512, 64]⟩ : Shape).Idx → EReal) (B3 : (⟨2, ![512, 2048]⟩ : Shape).Idx → EReal)
  (W4 W5 : (⟨2, ![64, 2048]⟩ : Shape).Idx → EReal) (B6 : (⟨2, ![2048, 512]⟩ : Shape).Idx → EReal)
  (B7 : (⟨2, ![2048, 64]⟩ : Shape).Idx → EReal)

/-- The gate at a flat row and a hidden column. -/
def gate (R : Fin 1024) (H : Fin 2048) : EReal :=
  (Ideal.ofBits .f32 0x00000000#32
      + ∑ k : Fin 64, Ideal.cos (A1 (ix2 R k) * P (ix2 (prow R) k) * W4 (ix2 k H) + W5 (ix2 k H)))
    * Ideal.ofBits .f32 0x3E000000#32

/-- The value path at a flat row and a hidden column. -/
def value (R : Fin 1024) (H : Fin 2048) : EReal := ∑ e : Fin 512, A0 (ix2 R e) * B3 (ix2 e H)

/-- One half of the hidden axis' share of the first down projection. -/
def contribR (R : Fin 1024) (d : Fin 512) (hi : ℕ) : EReal :=
  ∑ h : Fin 1024, (value A0 B3 R (col hi h) * gate A1 P W4 W5 R (col hi h)) * B6 (ix2 (col hi h) d)

/-- One half of the hidden axis' share of the second down projection. -/
def contribI (R : Fin 1024) (p : Fin 64) (hi : ℕ) : EReal :=
  ∑ h : Fin 1024, gate A1 P W4 W5 R (col hi h) * B7 (ix2 (col hi h) p)

/-- The first output at a flat row and a column, as the kernel accumulates it. -/
def outRat (R : Fin 1024) (d : Fin 512) : EReal :=
  A0 (ix2 R d)
    + ((Ideal.ofBits .f32 0x00000000#32 + contribR A0 A1 P B3 W4 W5 B6 R d 0) + contribR A0 A1 P B3 W4 W5 B6 R d 1)

/-- The second output at a flat row and a column, as the kernel accumulates it. -/
def outIat (R : Fin 1024) (p : Fin 64) : EReal :=
  A1 (ix2 R p)
    + ((Ideal.ofBits .f32 0x00000000#32 + contribI A1 P W4 W5 B7 R p 0) + contribI A1 P W4 W5 B7 R p 1)

/-- The first output array [1024, 512]. -/
def outR : (⟨2, ![1024, 512]⟩ : Shape).Idx → EReal := fun i => outRat A0 A1 P B3 W4 W5 B6 (i 0) (i 1)

/-- The second output array [1024, 64]. -/
def outI : (⟨2, ![1024, 64]⟩ : Shape).Idx → EReal := fun i => outIat A1 P W4 W5 B7 (i 0) (i 1)

end

/-- A sum over the hidden axis is the sum over its first half plus the sum over its second half. -/
theorem sum_halves (f : Fin 2048 → EReal) :
    ∑ H : Fin 2048, f H = ∑ h : Fin 1024, f (col 0 h) + ∑ h : Fin 1024, f (col 1 h) := by
  have e := Fin.sum_univ_add (a := 1024) (b := 1024) (fun H : Fin (1024 + 1024) => f H)
  refine e.trans ?_
  refine congrArg₂ (· + ·) (Finset.sum_congr rfl fun h _ => congrArg f (Fin.ext ?_))
    (Finset.sum_congr rfl fun h _ => congrArg f (Fin.ext ?_))
  · show h.val = (1024 * 0 + h.val) % 2048
    have := h.isLt
    omega
  · show 1024 + h.val = (1024 * 1 + h.val) % 2048
    have := h.isLt
    omega

section
variable (A0 : (⟨2, ![1024, 512]⟩ : Shape).Idx → EReal) (A1 : (⟨2, ![1024, 64]⟩ : Shape).Idx → EReal)
  (P : (⟨2, ![512, 64]⟩ : Shape).Idx → EReal) (B3 : (⟨2, ![512, 2048]⟩ : Shape).Idx → EReal)
  (W4 W5 : (⟨2, ![64, 2048]⟩ : Shape).Idx → EReal) (B6 : (⟨2, ![2048, 512]⟩ : Shape).Idx → EReal)
  (B7 : (⟨2, ![2048, 64]⟩ : Shape).Idx → EReal)

/-- The accumulated first output is the residual plus ONE sum over the whole hidden axis. -/
theorem outRat_eq_sum (R : Fin 1024) (d : Fin 512) :
    outRat A0 A1 P B3 W4 W5 B6 R d
      = A0 (ix2 R d) + ∑ H : Fin 2048, (value A0 B3 R H * gate A1 P W4 W5 R H) * B6 (ix2 H d) := by
  unfold outRat contribR
  rw [Ideal.ofBits_zero_f32, zero_add,
    sum_halves fun H => (value A0 B3 R H * gate A1 P W4 W5 R H) * B6 (ix2 H d)]

/-- The accumulated second output likewise. -/
theorem outIat_eq_sum (R : Fin 1024) (p : Fin 64) :
    outIat A1 P W4 W5 B7 R p
      = A1 (ix2 R p) + ∑ H : Fin 2048, gate A1 P W4 W5 R H * B7 (ix2 H p) := by
  unfold outIat contribI
  rw [Ideal.ofBits_zero_f32, zero_add, sum_halves fun H => gate A1 P W4 W5 R H * B7 (ix2 H p)]

end

end Cert.Spec

end
-- ==== Proof.KValue.lean ====
/-
  The kernel's two result arrays, as functions of the arrays the region finds.

  A grid point is a pair (row tile, half of the hidden axis), the half moving fastest. Its blocks are read off the arrays
  by tile arithmetic: rows `256 · (t / 2) + r` of the flattened inputs, row `(256 · (t / 2) + r) mod 512` of `pos_freq`,
  columns `1024 · (t mod 2) + h` of the hidden axis. At an even point the accumulators restart from zero; at the odd point
  after it they receive the second half and the outputs' blocks are written back. So the block written back at an odd
  point holds, at every element, `Spec.outRat` (resp. `Spec.outIat`) of the arrays — and the odd points' blocks tile
  the result arrays.
-/
import proofs.«158703_j16827681866028_2_alg».proof.Proof.Gen.KernelIdeal.Frame
import proofs.«158703_j16827681866028_2_alg».proof.Proof.Pieces
import proofs.«158703_j16827681866028_2_alg».proof.Proof.BodyMath
import proofs.«158703_j16827681866028_2_alg».proof.Proof.Spec
import Idealize.ShloMosaic.Lib.Pipeline.Value
import Idealize.ShloMosaic.Lib.Tactic

set_option maxRecDepth 16384

noncomputable section

open scoped BigOperators

open Idealize.ShloMosaic Idealize.ShloMosaic.TcCoe Idealize.SL.Sem
open Idealize.ShloMosaic.Pipeline (Dat)

namespace Cert.KernelIdeal.KValue

open Cert.KernelIdeal Cert.KernelIdeal.Gen Cert.KernelIdeal.Body Cert.KernelIdeal.Pieces Cert.Spec
open Idealize.ShloMosaic.ValueIdx

variable (m : (ℓ : Loc nD τ sig) → Buf (Elt Ideal) ℓ) (ρ : Dev nD → PrngReg)

/-! ## The arrays as the region finds them -/

abbrev A0 (c : Dev nD) : S1024x512.Idx → EReal := V m c main_v0
abbrev A1 (c : Dev nD) : S1024x64.Idx → EReal := V m c main_v1
abbrev PF (c : Dev nD) : S512x64.Idx → EReal := V m c main_arg2
abbrev W4 (c : Dev nD) : S64x2048.Idx → EReal := V m c main_arg4
abbrev W5 (c : Dev nD) : S64x2048.Idx → EReal := V m c main_arg5
abbrev B3 (c : Dev nD) : S512x2048.Idx → EReal := V m c main_v2
abbrev B6 (c : Dev nD) : S2048x512.Idx → EReal := V m c main_v3
abbrev B7 (c : Dev nD) : S2048x64.Idx → EReal := V m c main_v4

/-! ## Tile arithmetic -/

/-- The printed index maps over the grid: the row tile is `t / 2`, the half of the hidden axis `t mod 2`. -/
theorem idx_facts : ∀ t : Fin cfg0.N,
    win0_0.index t (0 : Fin 2) = t.val / 2 ∧ win0_0.index t (1 : Fin 2) = 0
    ∧ win0_1.index t (0 : Fin 2) = t.val / 2 ∧ win0_1.index t (1 : Fin 2) = 0
    ∧ win0_2.index t (0 : Fin 2) = t.val / 2 % 2 ∧ win0_2.index t (1 : Fin 2) = 0
    ∧ win0_3.index t (0 : Fin 2) = 0 ∧ win0_3.index t (1 : Fin 2) = t.val % 2
    ∧ win0_4.index t (0 : Fin 2) = 0 ∧ win0_4.index t (1 : Fin 2) = t.val % 2
    ∧ win0_5.index t (0 : Fin 2) = 0 ∧ win0_5.index t (1 : Fin 2) = t.val % 2
    ∧ win0_6.index t (0 : Fin 2) = t.val % 2 ∧ win0_6.index t (1 : Fin 2) = 0
    ∧ win0_7.index t (0 : Fin 2) = t.val % 2 ∧ win0_7.index t (1 : Fin 2) = 0
    ∧ win0_8.index t (0 : Fin 2) = t.val / 2 ∧ win0_8.index t (1 : Fin 2) = 0
    ∧ win0_9.index t (0 : Fin 2) = t.val / 2 ∧ win0_9.index t (1 : Fin 2) = 0 :=
  (by decide +kernel : ∀ t : Fin grid0.N, _)

/-- Row `r` of point `t`'s row tile, as a flat row. -/
def rowOf (t : Fin cfg0.N) (r : Fin 256) : Fin 1024 :=
  ⟨256 * (t.val / 2) + r.val, by have h := t.isLt; have hN : cfg0.N = 8 := N_0; have := r.isLt; omega⟩

/-- The point before `t`. -/
def prev (t : Fin cfg0.N) : Fin cfg0.N := ⟨t.val - 1, Nat.lt_of_le_of_lt (Nat.sub_le _ _) t.isLt⟩

/-! ## The blocks, read off the arrays -/

/-- Point `t`'s block of `x_real`. -/
def Bk0 (c : Dev nD) (t : Fin cfg0.N) : Vec Ideal S256x512 .f32 := iblk m c 0 t
/-- Point `t`'s block of `x_imag`. -/
def Bk1 (c : Dev nD) (t : Fin cfg0.N) : Vec Ideal S256x64 .f32 := iblk m c 1 t
/-- Point `t`'s block of `pos_freq`. -/
def Bk2 (c : Dev nD) (t : Fin cfg0.N) : Vec Ideal S256x64 .f32 := iblk m c 2 t
/-- Point `t`'s block of `w`. -/
def Bk3 (c : Dev nD) (t : Fin cfg0.N) : Vec Ideal S64x1024 .f32 := iblk m c 3 t
/-- Point `t`'s block of `b`. -/
def Bk4 (c : Dev nD) (t : Fin cfg0.N) : Vec Ideal S64x1024 .f32 := iblk m c 4 t
/-- Point `t`'s block of `W_up`. -/
def Bk5 (c : Dev nD) (t : Fin cfg0.N) : Vec Ideal S512x1024 .bf16 := iblk m c 5 t
/-- Point `t`'s block of `W_down_real`. -/
def Bk6 (c : Dev nD) (t : Fin cfg0.N) : Vec Ideal S1024x512 .bf16 := iblk m c 6 t
/-- Point `t`'s block of `W_down_imag`. -/
def Bk7 (c : Dev nD) (t : Fin cfg0.N) : Vec Ideal S1024x64 .bf16 := iblk m c 7 t

theorem blk0_at (c : Dev nD) (t : Fin cfg0.N) (r : Fin 256) (e : Fin 512) :
    Bk0 m c t (ix2 r e) = A0 m c (ix2 (rowOf t r) e) := by
  obtain ⟨f0, f1, -⟩ := idx_facts t
  show V m c main_v0 (((cfg0.win 0).blk t).view.emb (ix2 r e)) = _
  refine congrArg (V m c main_v0) (funext fun a => Fin.ext ?_)
  match a with
  | ⟨0, _⟩ => show win0_0.index t (0 : Fin 2) * 256 + 1 * r.val = 256 * (t.val / 2) + r.val; rw [f0]; omega
  | ⟨1, _⟩ => show win0_0.index t (1 : Fin 2) * 512 + 1 * e.val = e.val; rw [f1]; omega

theorem blk1_at (c : Dev nD) (t : Fin cfg0.N) (r : Fin 256) (k : Fin 64) :
    Bk1 m c t (ix2 r k) = A1 m c (ix2 (rowOf t r) k) := by
  obtain ⟨-, -, f0, f1, -⟩ := idx_facts t
  show V m c main_v1 (((cfg0.win 1).blk t).view.emb (ix2 r k)) = _
  refine congrArg (V m c main_v1) (funext fun a => Fin.ext ?_)
  match a with
  | ⟨0, _⟩ => show win0_1.index t (0 : Fin 2) * 256 + 1 * r.val = 256 * (t.val / 2) + r.val; rw [f0]; omega
  | ⟨1, _⟩ => show win0_1.index t (1 : Fin 2) * 64 + 1 * k.val = k.val; rw [f1]; omega

theorem blk2_at (c : Dev nD) (t : Fin cfg0.N) (r : Fin 256) (k : Fin 64) :
    Bk2 m c t (ix2 r k) = PF m c (ix2 (prow (rowOf t r)) k) := by
  obtain ⟨-, -, -, -, f0, f1, -⟩ := idx_facts t
  show V m c main_arg2 (((cfg0.win 2).blk t).view.emb (ix2 r k)) = _
  refine congrArg (V m c main_arg2) (funext fun a => Fin.ext ?_)
  have hr := r.isLt
  match a with
  | ⟨0, _⟩ => show win0_2.index t (0 : Fin 2) * 256 + 1 * r.val = (256 * (t.val / 2) + r.val) % 512; rw [f0]; omega
  | ⟨1, _⟩ => show win0_2.index t (1 : Fin 2) * 64 + 1 * k.val = k.val; rw [f1]; omega

theorem blk3_at (c : Dev nD) (t : Fin cfg0.N) (k : Fin 64) (h : Fin 1024) :
    Bk3 m c t (ix2 k h) = W4 m c (ix2 k (col (t.val % 2) h)) := by
  obtain ⟨-, -, -, -, -, -, f0, f1, -⟩ := idx_facts t
  show V m c main_arg4 (((cfg0.win 3).blk t).view.emb (ix2 k h)) = _
  refine congrArg (V m c main_arg4) (funext fun a => Fin.ext ?_)
  have hh := h.isLt
  match a with
  | ⟨0, _⟩ => show win0_3.index t (0 : Fin 2) * 64 + 1 * k.val = k.val; rw [f0]; omega
  | ⟨1, _⟩ => show win0_3.index t (1 : Fin 2) * 1024 + 1 * h.val = (1024 * (t.val % 2) + h.val) % 2048; rw [f1]; omega

theorem blk4_at (c : Dev nD) (t : Fin cfg0.N) (k : Fin 64) (h : Fin 1024) :
    Bk4 m c t (ix2 k h) = W5 m c (ix2 k (col (t.val % 2) h)) := by
  obtain ⟨-, -, -, -, -, -, -, -, f0, f1, -⟩ := idx_facts t
  show V m c main_arg5 (((cfg0.win 4).blk t).view.emb (ix2 k h)) = _
  refine congrArg (V m c main_arg5) (funext fun a => Fin.ext ?_)
  have hh := h.isLt
  match a with
  | ⟨0, _⟩ => show win0_4.index t (0 : Fin 2) * 64 + 1 * k.val = k.val; rw [f0]; omega
  | ⟨1, _⟩ => show win0_4.index t (1 : Fin 2) * 1024 + 1 * h.val = (1024 * (t.val % 2) + h.val) % 2048; rw [f1]; omega

theorem blk5_at (c : Dev nD) (t : Fin cfg0.N) (e : Fin 512) (h : Fin 1024) :
    Bk5 m c t (ix2 e h) = B3 m c (ix2 e (col (t.val % 2) h)) := by
  obtain ⟨-, -, -, -, -, -, -, -, -, -, f0, f1, -⟩ := idx_facts t
  show V m c main_v2 (((cfg0.win 5).blk t).view.emb (ix2 e h)) = _
  refine congrArg (V m c main_v2) (funext fun a => Fin.ext ?_)
  have hh := h.isLt
  match a with
  | ⟨0, _⟩ => show win0_5.index t (0 : Fin 2) * 512 + 1 * e.val = e.val; rw [f0]; omega
  | ⟨1, _⟩ => show win0_5.index t (1 : Fin 2) * 1024 + 1 * h.val = (1024 * (t.val % 2) + h.val) % 2048; rw [f1]; omega

theorem blk6_at (c : Dev nD) (t : Fin cfg0.N) (h : Fin 1024) (d : Fin 512) :
    Bk6 m c t (ix2 h d) = B6 m c (ix2 (col (t.val % 2) h) d) := by
  obtain ⟨-, -, -, -, -, -, -, -, -, -, -, -, f0, f1, -⟩ := idx_facts t
  show V m c main_v3 (((cfg0.win 6).blk t).view.emb (ix2 h d)) = _
  refine congrArg (V m c main_v3) (funext fun a => Fin.ext ?_)
  have hh := h.isLt
  match a with
  | ⟨0, _⟩ => show win0_6.index t (0 : Fin 2) * 1024 + 1 * h.val = (1024 * (t.val % 2) + h.val) % 2048; rw [f0]; omega
  | ⟨1, _⟩ => show win0_6.index t (1 : Fin 2) * 512 + 1 * d.val = d.val; rw [f1]; omega

theorem blk7_at (c : Dev nD) (t : Fin cfg0.N) (h : Fin 1024) (p : Fin 64) :
    Bk7 m c t (ix2 h p) = B7 m c (ix2 (col (t.val % 2) h) p) := by
  obtain ⟨-, -, -, -, -, -, -, -, -, -, -, -, -, -, f0, f1, -⟩ := idx_facts t
  show V m c main_v4 (((cfg0.win 7).blk t).view.emb (ix2 h p)) = _
  refine congrArg (V m c main_v4) (funext fun a => Fin.ext ?_)
  have hh := h.isLt
  match a with
  | ⟨0, _⟩ => show win0_7.index t (0 : Fin 2) * 1024 + 1 * h.val = (1024 * (t.val % 2) + h.val) % 2048; rw [f0]; omega
  | ⟨1, _⟩ => show win0_7.index t (1 : Fin 2) * 64 + 1 * p.val = p.val; rw [f1]; omega

/-! ## One point's share of the two down projections -/

theorem contribR_eq (c : Dev nD) (t : Fin cfg0.N) (r : Fin 256) (d : Fin 512) :
    (∑ h : Fin 1024,
        ((∑ e : Fin 512, Bk0 m c t (ix2 r e) * Bk5 m c t (ix2 e h))
          * gateAt (Bk1 m c t) (Bk2 m c t) (Bk3 m c t) (Bk4 m c t) r h)
        * Bk6 m c t (ix2 h d))
      = contribR (A0 m c) (A1 m c) (PF m c) (B3 m c) (W4 m c) (W5 m c) (B6 m c) (rowOf t r) d (t.val % 2) := by
  unfold contribR value gate gateAt
  simp only [blk0_at m c t, blk1_at m c t, blk2_at m c t, blk3_at m c t, blk4_at m c t, blk5_at m c t, blk6_at m c t]

theorem contribI_eq (c : Dev nD) (t : Fin cfg0.N) (r : Fin 256) (p : Fin 64) :
    (∑ h : Fin 1024, gateAt (Bk1 m c t) (Bk2 m c t) (Bk3 m c t) (Bk4 m c t) r h * Bk7 m c t (ix2 h p))
      = contribI (A1 m c) (PF m c) (W4 m c) (W5 m c) (B7 m c) (rowOf t r) p (t.val % 2) := by
  unfold contribI gate gateAt
  simp only [blk1_at m c t, blk2_at m c t, blk3_at m c t, blk4_at m c t, blk7_at m c t]

/-! ## What the buffers hold after a point -/

/-- After an even point the first accumulator holds the zero block plus the point's share. -/
theorem s0_even (c : Dev nD) (t : Fin cfg0.N) (h0 : t.val % 2 = 0) :
    (outsAt0 m c t.val t.isLt).2.2.1 = newS0 (Bk0 m c t) (Bk1 m c t) (Bk2 m c t) (Bk3 m c t) (Bk4 m c t) (Bk5 m c t) (Bk6 m c t) (k0_pay4 (F := Ideal)) := by
  have h1 : ¬t.val % 2 = 1 := by omega
  rw [outsAt0_A m c t h0 h1]
  dsimp only
  exact sA0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)

/-- After an even point the second accumulator likewise. -/
theorem s1_even (c : Dev nD) (t : Fin cfg0.N) (h0 : t.val % 2 = 0) :
    (outsAt0 m c t.val t.isLt).2.2.2 = newS1 (Bk1 m c t) (Bk2 m c t) (Bk3 m c t) (Bk4 m c t) (Bk7 m c t) (k0_pay5 (F := Ideal)) := by
  have h1 : ¬t.val % 2 = 1 := by omega
  rw [outsAt0_A m c t h0 h1]
  dsimp only
  exact sA1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)

/-- After an odd point the first output's buffer holds the residual block plus both shares. -/
theorem out8_odd (c : Dev nD) (t : Fin cfg0.N) (h1 : t.val % 2 = 1) :
    (outsAt0 m c t.val t.isLt).1
      = k0_pay2 (Bk0 m c t) (newS0 (Bk0 m c t) (Bk1 m c t) (Bk2 m c t) (Bk3 m c t) (Bk4 m c t) (Bk5 m c t) (Bk6 m c t) (newS0 (Bk0 m c (prev t)) (Bk1 m c (prev t)) (Bk2 m c (prev t)) (Bk3 m c (prev t)) (Bk4 m c (prev t)) (Bk5 m c (prev t)) (Bk6 m c (prev t)) (k0_pay4 (F := Ideal)))) := by
  have h0 : ¬t.val % 2 = 0 := by omega
  have hp0 : (prev t).val % 2 = 0 := by show (t.val - 1) % 2 = 0; omega
  have es : (outsAt0 m c (t.val - 1) (Nat.lt_of_le_of_lt (Nat.sub_le _ _) t.isLt)).2.2.1 = newS0 (Bk0 m c (prev t)) (Bk1 m c (prev t)) (Bk2 m c (prev t)) (Bk3 m c (prev t)) (Bk4 m c (prev t)) (Bk5 m c (prev t)) (Bk6 m c (prev t)) (k0_pay4 (F := Ideal)) := s0_even m c (prev t) hp0
  rw [outsAt0_B m c t h0 h1]
  dsimp only
  exact (oB8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t)
    (outsAt0 m c (t.val - 1) (Nat.lt_of_le_of_lt (Nat.sub_le _ _) t.isLt)).2.2.1 (outsAt0 m c (t.val - 1) (Nat.lt_of_le_of_lt (Nat.sub_le _ _) t.isLt)).2.2.2).trans
    (congrArg (fun s => k0_pay2 (Bk0 m c t) (newS0 (Bk0 m c t) (Bk1 m c t) (Bk2 m c t) (Bk3 m c t) (Bk4 m c t) (Bk5 m c t) (Bk6 m c t) s)) es)

/-- After an odd point the second output's buffer likewise. -/
theorem out9_odd (c : Dev nD) (t : Fin cfg0.N) (h1 : t.val % 2 = 1) :
    (outsAt0 m c t.val t.isLt).2.1
      = k0_pay3 (Bk1 m c t) (newS1 (Bk1 m c t) (Bk2 m c t) (Bk3 m c t) (Bk4 m c t) (Bk7 m c t) (newS1 (Bk1 m c (prev t)) (Bk2 m c (prev t)) (Bk3 m c (prev t)) (Bk4 m c (prev t)) (Bk7 m c (prev t)) (k0_pay5 (F := Ideal)))) := by
  have h0 : ¬t.val % 2 = 0 := by omega
  have hp0 : (prev t).val % 2 = 0 := by show (t.val - 1) % 2 = 0; omega
  have es : (outsAt0 m c (t.val - 1) (Nat.lt_of_le_of_lt (Nat.sub_le _ _) t.isLt)).2.2.2 = newS1 (Bk1 m c (prev t)) (Bk2 m c (prev t)) (Bk3 m c (prev t)) (Bk4 m c (prev t)) (Bk7 m c (prev t)) (k0_pay5 (F := Ideal)) := s1_even m c (prev t) hp0
  rw [outsAt0_B m c t h0 h1]
  dsimp only
  exact (oB9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t)
    (outsAt0 m c (t.val - 1) (Nat.lt_of_le_of_lt (Nat.sub_le _ _) t.isLt)).2.2.1 (outsAt0 m c (t.val - 1) (Nat.lt_of_le_of_lt (Nat.sub_le _ _) t.isLt)).2.2.2).trans
    (congrArg (fun s => k0_pay3 (Bk1 m c t) (newS1 (Bk1 m c t) (Bk2 m c t) (Bk3 m c t) (Bk4 m c t) (Bk7 m c t) s)) es)

/-! ## The value written back at an odd point, element by element -/

theorem point_valueR (c : Dev nD) (t : Fin cfg0.N) (h1 : t.val % 2 = 1) (r : Fin 256) (d : Fin 512) :
    k0_pay2 (F := Ideal) (Bk0 m c t) (newS0 (Bk0 m c t) (Bk1 m c t) (Bk2 m c t) (Bk3 m c t) (Bk4 m c t) (Bk5 m c t) (Bk6 m c t) (newS0 (Bk0 m c (prev t)) (Bk1 m c (prev t)) (Bk2 m c (prev t)) (Bk3 m c (prev t)) (Bk4 m c (prev t)) (Bk5 m c (prev t)) (Bk6 m c (prev t)) (k0_pay4 (F := Ideal)))) (ix2 r d)
      = outRat (A0 m c) (A1 m c) (PF m c) (B3 m c) (W4 m c) (W5 m c) (B6 m c) (rowOf t r) d := by
  have hp : (prev t).val % 2 = 0 := by show (t.val - 1) % 2 = 0; omega
  have hrow : rowOf (prev t) r = rowOf t r :=
    Fin.ext (by show 256 * ((t.val - 1) / 2) + r.val = 256 * (t.val / 2) + r.val; omega)
  have e1 := contribR_eq m c t r d
  rw [h1] at e1
  have e0 := contribR_eq m c (prev t) r d
  rw [hp, hrow] at e0
  rw [pay2_at (Bk0 m c t) (newS0 (Bk0 m c t) (Bk1 m c t) (Bk2 m c t) (Bk3 m c t) (Bk4 m c t) (Bk5 m c t) (Bk6 m c t) (newS0 (Bk0 m c (prev t)) (Bk1 m c (prev t)) (Bk2 m c (prev t)) (Bk3 m c (prev t)) (Bk4 m c (prev t)) (Bk5 m c (prev t)) (Bk6 m c (prev t)) (k0_pay4 (F := Ideal)))) (ix2 r d),
    newS0_at (Bk0 m c t) (Bk1 m c t) (Bk2 m c t) (Bk3 m c t) (Bk4 m c t) (Bk5 m c t) (Bk6 m c t) (newS0 (Bk0 m c (prev t)) (Bk1 m c (prev t)) (Bk2 m c (prev t)) (Bk3 m c (prev t)) (Bk4 m c (prev t)) (Bk5 m c (prev t)) (Bk6 m c (prev t)) (k0_pay4 (F := Ideal))) r d,
    newS0_at (Bk0 m c (prev t)) (Bk1 m c (prev t)) (Bk2 m c (prev t)) (Bk3 m c (prev t)) (Bk4 m c (prev t)) (Bk5 m c (prev t)) (Bk6 m c (prev t)) (k0_pay4 (F := Ideal)) r d, pay4_at, e0, e1, blk0_at m c t r d]
  rfl

theorem point_valueI (c : Dev nD) (t : Fin cfg0.N) (h1 : t.val % 2 = 1) (r : Fin 256) (p : Fin 64) :
    k0_pay3 (F := Ideal) (Bk1 m c t) (newS1 (Bk1 m c t) (Bk2 m c t) (Bk3 m c t) (Bk4 m c t) (Bk7 m c t) (newS1 (Bk1 m c (prev t)) (Bk2 m c (prev t)) (Bk3 m c (prev t)) (Bk4 m c (prev t)) (Bk7 m c (prev t)) (k0_pay5 (F := Ideal)))) (ix2 r p)
      = outIat (A1 m c) (PF m c) (W4 m c) (W5 m c) (B7 m c) (rowOf t r) p := by
  have hp : (prev t).val % 2 = 0 := by show (t.val - 1) % 2 = 0; omega
  have hrow : rowOf (prev t) r = rowOf t r :=
    Fin.ext (by show 256 * ((t.val - 1) / 2) + r.val = 256 * (t.val / 2) + r.val; omega)
  have e1 := contribI_eq m c t r p
  rw [h1] at e1
  have e0 := contribI_eq m c (prev t) r p
  rw [hp, hrow] at e0
  rw [pay3_at (Bk1 m c t) (newS1 (Bk1 m c t) (Bk2 m c t) (Bk3 m c t) (Bk4 m c t) (Bk7 m c t) (newS1 (Bk1 m c (prev t)) (Bk2 m c (prev t)) (Bk3 m c (prev t)) (Bk4 m c (prev t)) (Bk7 m c (prev t)) (k0_pay5 (F := Ideal)))) (ix2 r p),
    newS1_at (Bk1 m c t) (Bk2 m c t) (Bk3 m c t) (Bk4 m c t) (Bk7 m c t) (newS1 (Bk1 m c (prev t)) (Bk2 m c (prev t)) (Bk3 m c (prev t)) (Bk4 m c (prev t)) (Bk7 m c (prev t)) (k0_pay5 (F := Ideal))) r p,
    newS1_at (Bk1 m c (prev t)) (Bk2 m c (prev t)) (Bk3 m c (prev t)) (Bk4 m c (prev t)) (Bk7 m c (prev t)) (k0_pay5 (F := Ideal)) r p, pay5_at, e0, e1, blk1_at m c t r p]
  rfl

end Cert.KernelIdeal.KValue

end
-- ==== Proof.KRun.lean ====
/-
  The kernel's run, read: its two results as functions of its arguments.

  The blocks written back at the odd grid points tile the two result arrays of the region, so after the run those arrays
  hold `Spec.outR` and `Spec.outI` of the arrays the region found. The lines of @main before the region make those
  arrays from the arguments — `x_real` and `x_imag` flattened over (batch, position), the three projection matrices
  converted to bf16 (no change of value over the extended reals) — and the lines after it cut the two result arrays back
  into [batch, position, ·].
-/
import proofs.«158703_j16827681866028_2_alg».proof.Proof.KValue
import Idealize.ShloMosaic.Lib.StableHlo.Run

set_option maxRecDepth 16384

noncomputable section

open scoped BigOperators

open Idealize.ShloMosaic Idealize.ShloMosaic.TcCoe Idealize.SL.Sem
open Idealize.ShloMosaic.Pipeline (Dat)

namespace Cert.KernelIdeal.KRun

open Cert.KernelIdeal Cert.KernelIdeal.Gen Cert.KernelIdeal.Body Cert.KernelIdeal.Pieces Cert.KernelIdeal.KValue Cert.Spec
open Idealize.ShloMosaic.ValueIdx

variable (m : (ℓ : Loc nD τ sig) → Buf (Elt Ideal) ℓ) (ρ : Dev nD → PrngReg)

/-- The region's first result array. -/
def R8 (c : Dev nD) : S1024x512.Idx → EReal := outR (A0 m c) (A1 m c) (PF m c) (B3 m c) (W4 m c) (W5 m c) (B6 m c)

/-- The region's second result array. -/
def R9 (c : Dev nD) : S1024x64.Idx → EReal := outI (A1 m c) (PF m c) (W4 m c) (W5 m c) (B7 m c)

/-! ## What an odd point writes back is its block of the result -/

theorem flushed8_eq (c : Dev nD) (t : Fin cfg0.N) (hf : (cfg0.win 8).flush t = true) :
    (dats m 0 c).flushed 8 t = ((cfg0.win 8).blk t).view.read (Elt Ideal) (R8 m c) := by
  have h1 : t.val % 2 = 1 := (flush0_8 t).mp hf
  obtain ⟨-, -, -, -, -, -, -, -, -, -, -, -, -, -, -, -, f0, f1, -⟩ := idx_facts t
  show (cfg0.win 8).cut (grid0.coords t) ((dats m 0 c).after 8 t) = _
  rw [after0_8, out8_odd m c t h1]
  funext y
  obtain ⟨r, d, rfl⟩ : ∃ (r : Fin 256) (d : Fin 512), y = ix2 r d := ⟨y 0, y 1, eq_ix2 y⟩
  have hemb : ((cfg0.win 8).blk t).view.emb (ix2 r d) = ix2 (rowOf t r) d := funext fun a => Fin.ext (by
    match a with
    | ⟨0, _⟩ => show win0_8.index t (0 : Fin 2) * 256 + 1 * r.val = 256 * (t.val / 2) + r.val; rw [f0]; omega
    | ⟨1, _⟩ => show win0_8.index t (1 : Fin 2) * 512 + 1 * d.val = d.val; rw [f1]; omega)
  show k0_pay2 (F := Ideal) (Bk0 m c t) (newS0 (Bk0 m c t) (Bk1 m c t) (Bk2 m c t) (Bk3 m c t) (Bk4 m c t) (Bk5 m c t) (Bk6 m c t) (newS0 (Bk0 m c (prev t)) (Bk1 m c (prev t)) (Bk2 m c (prev t)) (Bk3 m c (prev t)) (Bk4 m c (prev t)) (Bk5 m c (prev t)) (Bk6 m c (prev t)) (k0_pay4 (F := Ideal)))) (ix2 r d)
    = R8 m c (((cfg0.win 8).blk t).view.emb (ix2 r d))
  rw [hemb]
  exact point_valueR m c t h1 r d

theorem flushed9_eq (c : Dev nD) (t : Fin cfg0.N) (hf : (cfg0.win 9).flush t = true) :
    (dats m 0 c).flushed 9 t = ((cfg0.win 9).blk t).view.read (Elt Ideal) (R9 m c) := by
  have h1 : t.val % 2 = 1 := (flush0_9 t).mp hf
  obtain ⟨-, -, -, -, -, -, -, -, -, -, -, -, -, -, -, -, -, -, f0, f1⟩ := idx_facts t
  show (cfg0.win 9).cut (grid0.coords t) ((dats m 0 c).after 9 t) = _
  rw [after0_9, out9_odd m c t h1]
  funext y
  obtain ⟨r, p, rfl⟩ : ∃ (r : Fin 256) (p : Fin 64), y = ix2 r p := ⟨y 0, y 1, eq_ix2 y⟩
  have hemb : ((cfg0.win 9).blk t).view.emb (ix2 r p) = ix2 (rowOf t r) p := funext fun a => Fin.ext (by
    match a with
    | ⟨0, _⟩ => show win0_9.index t (0 : Fin 2) * 256 + 1 * r.val = 256 * (t.val / 2) + r.val; rw [f0]; omega
    | ⟨1, _⟩ => show win0_9.index t (1 : Fin 2) * 64 + 1 * p.val = p.val; rw [f1]; omega)
  show k0_pay3 (F := Ideal) (Bk1 m c t) (newS1 (Bk1 m c t) (Bk2 m c t) (Bk3 m c t) (Bk4 m c t) (Bk7 m c t) (newS1 (Bk1 m c (prev t)) (Bk2 m c (prev t)) (Bk3 m c (prev t)) (Bk4 m c (prev t)) (Bk7 m c (prev t)) (k0_pay5 (F := Ideal)))) (ix2 r p)
    = R9 m c (((cfg0.win 9).blk t).view.emb (ix2 r p))
  rw [hemb]
  exact point_valueI m c t h1 r p

/-! ## The odd points' blocks tile the result arrays -/

theorem mem_blk8 (t : Fin cfg0.N) (i : S1024x512.Idx) :
    i ∈ ((cfg0.win 8).blk t).view.set
      ↔ ∀ a : Fin 2, win0_8.index t a * S256x512.size a ≤ (i a).val
          ∧ (i a).val < win0_8.index t a * S256x512.size a + S256x512.size a := by
  show i ∈ ((View.whole main_v5_0).slice (win0_8.rect t)).set ↔ _
  rw [View.set_slice_whole, Rect.mem_set_unit]
  exact Iff.rfl

theorem mem_blk9 (t : Fin cfg0.N) (i : S1024x64.Idx) :
    i ∈ ((cfg0.win 9).blk t).view.set
      ↔ ∀ a : Fin 2, win0_9.index t a * S256x64.size a ≤ (i a).val
          ∧ (i a).val < win0_9.index t a * S256x64.size a + S256x64.size a := by
  show i ∈ ((View.whole main_v5_1).slice (win0_9.rect t)).set ↔ _
  rw [View.set_slice_whole, Rect.mem_set_unit]
  exact Iff.rfl

/-- Row `R` of the first result lies in the block of the odd point of row tile `R / 256`. -/
theorem cover8 (i : S1024x512.Idx) :
    ∃ t : Fin cfg0.N, (cfg0.win 8).flush t = true ∧ i ∈ ((cfg0.win 8).blk t).view.set := by
  have hi0 : (i 0).val < 1024 := (i 0).isLt
  have hi1 : (i 1).val < 512 := (i 1).isLt
  have hN : cfg0.N = 8 := N_0
  have ht : 2 * ((i 0).val / 256) + 1 < cfg0.N := by omega
  obtain ⟨-, -, -, -, -, -, -, -, -, -, -, -, -, -, -, -, f0, f1, -⟩ := idx_facts ⟨2 * ((i 0).val / 256) + 1, ht⟩
  refine ⟨⟨2 * ((i 0).val / 256) + 1, ht⟩, (flush0_8 _).mpr (by show (2 * ((i 0).val / 256) + 1) % 2 = 1; omega), ?_⟩
  rw [mem_blk8]
  intro a
  match a with
  | ⟨0, _⟩ =>
    show win0_8.index ⟨2 * ((i 0).val / 256) + 1, ht⟩ (0 : Fin 2) * 256 ≤ (i 0).val
      ∧ (i 0).val < win0_8.index ⟨2 * ((i 0).val / 256) + 1, ht⟩ (0 : Fin 2) * 256 + 256
    rw [f0]
    show (2 * ((i 0).val / 256) + 1) / 2 * 256 ≤ (i 0).val ∧ (i 0).val < (2 * ((i 0).val / 256) + 1) / 2 * 256 + 256
    omega
  | ⟨1, _⟩ =>
    show win0_8.index ⟨2 * ((i 0).val / 256) + 1, ht⟩ (1 : Fin 2) * 512 ≤ (i 1).val
      ∧ (i 1).val < win0_8.index ⟨2 * ((i 0).val / 256) + 1, ht⟩ (1 : Fin 2) * 512 + 512
    rw [f1]
    omega

theorem cover9 (i : S1024x64.Idx) :
    ∃ t : Fin cfg0.N, (cfg0.win 9).flush t = true ∧ i ∈ ((cfg0.win 9).blk t).view.set := by
  have hi0 : (i 0).val < 1024 := (i 0).isLt
  have hi1 : (i 1).val < 64 := (i 1).isLt
  have hN : cfg0.N = 8 := N_0
  have ht : 2 * ((i 0).val / 256) + 1 < cfg0.N := by omega
  obtain ⟨-, -, -, -, -, -, -, -, -, -, -, -, -, -, -, -, -, -, f0, f1⟩ := idx_facts ⟨2 * ((i 0).val / 256) + 1, ht⟩
  refine ⟨⟨2 * ((i 0).val / 256) + 1, ht⟩, (flush0_9 _).mpr (by show (2 * ((i 0).val / 256) + 1) % 2 = 1; omega), ?_⟩
  rw [mem_blk9]
  intro a
  match a with
  | ⟨0, _⟩ =>
    show win0_9.index ⟨2 * ((i 0).val / 256) + 1, ht⟩ (0 : Fin 2) * 256 ≤ (i 0).val
      ∧ (i 0).val < win0_9.index ⟨2 * ((i 0).val / 256) + 1, ht⟩ (0 : Fin 2) * 256 + 256
    rw [f0]
    show (2 * ((i 0).val / 256) + 1) / 2 * 256 ≤ (i 0).val ∧ (i 0).val < (2 * ((i 0).val / 256) + 1) / 2 * 256 + 256
    omega
  | ⟨1, _⟩ =>
    show win0_9.index ⟨2 * ((i 0).val / 256) + 1, ht⟩ (1 : Fin 2) * 64 ≤ (i 1).val
      ∧ (i 1).val < win0_9.index ⟨2 * ((i 0).val / 256) + 1, ht⟩ (1 : Fin 2) * 64 + 64
    rw [f1]
    omega

/-- So the region's result arrays end at the specification of the arrays it found. -/
theorem final8 (c : Dev nD) : (dats m 0 c).arrAt 8 cfg0.N = R8 m c :=
  (dats m 0 c).arrAt_eq_of_cover 8 (R8 m c) (flushed8_eq m c) cover8

theorem final9 (c : Dev nD) : (dats m 0 c).arrAt 9 cfg0.N = R9 m c :=
  (dats m 0 c).arrAt_eq_of_cover 9 (R9 m c) (flushed9_eq m c) cover9

/-! ## The lines of @main before and after the region -/

theorem A0_eq (c : Dev nD) :
    A0 m c = shapeCast S1024x512 (m ((c : Thread nD τ).loc main_arg0)) shapeCasts_S2x512x512_S1024x512 := by
  show StableHlo.after hostOps0 (fun b => m (c, b)) (Proc.devRef .tc main_v0) = _
  after_results
  rfl

theorem A1_eq (c : Dev nD) :
    A1 m c = shapeCast S1024x64 (m ((c : Thread nD τ).loc main_arg1)) shapeCasts_S2x512x64_S1024x64 := by
  show StableHlo.after hostOps0 (fun b => m (c, b)) (Proc.devRef .tc main_v1) = _
  after_results
  rfl

theorem B3_eq (c : Dev nD) : B3 m c = m ((c : Thread nD τ).loc main_arg3) := by
  show StableHlo.after hostOps0 (fun b => m (c, b)) (Proc.devRef .tc main_v2) = _
  after_results
  rfl

theorem B6_eq (c : Dev nD) : B6 m c = m ((c : Thread nD τ).loc main_arg6) := by
  show StableHlo.after hostOps0 (fun b => m (c, b)) (Proc.devRef .tc main_v3) = _
  after_results
  rfl

theorem B7_eq (c : Dev nD) : B7 m c = m ((c : Thread nD τ).loc main_arg7) := by
  show StableHlo.after hostOps0 (fun b => m (c, b)) (Proc.devRef .tc main_v4) = _
  after_results
  rfl

theorem PF_eq (c : Dev nD) : PF m c = m ((c : Thread nD τ).loc main_arg2) := V_main_arg2 m c
theorem W4_eq (c : Dev nD) : W4 m c = m ((c : Thread nD τ).loc main_arg4) := V_main_arg4 m c
theorem W5_eq (c : Dev nD) : W5 m c = m ((c : Thread nD τ).loc main_arg5) := V_main_arg5 m c

/-- The region's first result array, from the arguments. -/
theorem R8_eq (c : Dev nD) :
    R8 m c = outR (shapeCast S1024x512 (m ((c : Thread nD τ).loc main_arg0)) shapeCasts_S2x512x512_S1024x512)
      (shapeCast S1024x64 (m ((c : Thread nD τ).loc main_arg1)) shapeCasts_S2x512x64_S1024x64)
      (m ((c : Thread nD τ).loc main_arg2)) (m ((c : Thread nD τ).loc main_arg3))
      (m ((c : Thread nD τ).loc main_arg4)) (m ((c : Thread nD τ).loc main_arg5))
      (m ((c : Thread nD τ).loc main_arg6)) := by
  unfold R8
  rw [A0_eq, A1_eq, PF_eq, B3_eq, W4_eq, W5_eq, B6_eq]

/-- The region's second result array, from the arguments. -/
theorem R9_eq (c : Dev nD) :
    R9 m c = outI (shapeCast S1024x64 (m ((c : Thread nD τ).loc main_arg1)) shapeCasts_S2x512x64_S1024x64)
      (m ((c : Thread nD τ).loc main_arg2)) (m ((c : Thread nD τ).loc main_arg4))
      (m ((c : Thread nD τ).loc main_arg5)) (m ((c : Thread nD τ).loc main_arg7)) := by
  unfold R9
  rw [A1_eq, PF_eq, W4_eq, W5_eq, B7_eq]

/-- @main's first result: the region's first result array cut back into [batch, position, ·]. -/
theorem tail6 (c : Dev nD) :
    Pipeline.afterTail₀ cfgs (dats m) 0 (V0 m) [hostOps1] c main_v6
      = shapeCast S2x512x512 (R8 m c) shapeCasts_S1024x512_S2x512x512 := by
  have e : Pipeline.withArrays (cfgs 0).spec c (V0 m c) (fun w => (dats m 0 c).arrAt w (cfgs 0).N)
      (Proc.tc.devRef main_v5_0) = R8 m c :=
    (Pipeline.withArrays_arr spec0 launch0.win.arr_inj c _ _ 8).trans (final8 m c)
  unfold Pipeline.afterTail₀
  show StableHlo.after hostOps1 _ (Proc.devRef .tc main_v6) = _
  after_results
  rw [e]
  rfl

/-- @main's second result likewise. -/
theorem tail7 (c : Dev nD) :
    Pipeline.afterTail₀ cfgs (dats m) 0 (V0 m) [hostOps1] c main_v7
      = shapeCast S2x512x64 (R9 m c) shapeCasts_S1024x64_S2x512x64 := by
  have e : Pipeline.withArrays (cfgs 0).spec c (V0 m c) (fun w => (dats m 0 c).arrAt w (cfgs 0).N)
      (Proc.tc.devRef main_v5_1) = R9 m c :=
    (Pipeline.withArrays_arr spec0 launch0.win.arr_inj c _ _ 9).trans (final9 m c)
  unfold Pipeline.afterTail₀
  show StableHlo.after hostOps1 _ (Proc.devRef .tc main_v7) = _
  after_results
  rw [e]
  rfl

/-! ## The run -/

/-- Every weakly fair execution of the idealized kernel's @main terminates with its two results at the specification of
    the arguments (flattened, then cut back) and the arguments unchanged. -/
theorem run : θ_run defs (onTc (τ := τ) (main (F := Ideal))) ⟨m, fun _ => 0, ρ⟩ fun r => ∀ c : Dev nD,
      r.2.mem ((c.tc : Thread nD τ).loc main_v6) = shapeCast S2x512x512 (R8 m c) shapeCasts_S1024x512_S2x512x512
      ∧ r.2.mem ((c.tc : Thread nD τ).loc main_v7) = shapeCast S2x512x64 (R9 m c) shapeCasts_S1024x64_S2x512x64
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
    ⟨((h c).2 main_v6 (Pipeline.mem_restRefs_of main_v6 (by decide) (by decide))).trans (tail6 m c),
      ((h c).2 main_v7 (Pipeline.mem_restRefs_of main_v7 (by decide) (by decide))).trans (tail7 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).1 3).trans (((dats m 0 c).arrAt_in 3 rfl _).trans ((A_eq m c 3).trans (V_main_arg4 m c))),
      ((h c).1 4).trans (((dats m 0 c).arrAt_in 4 rfl _).trans ((A_eq m c 4).trans (V_main_arg5 m c))),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩)
    (run_main m ρ)

end Cert.KernelIdeal.KRun

end
-- ==== Proof.RefSide.lean ====
/-
  The reference, read index by index, is the specification of the flattened arrays.

  The reference works on [batch, position, ·] arrays; the kernel on rows flattened over (batch, position). A flat row
  `512 · b + l` of a flattened array is row `(b, l)` of the array, and its position `(512 · b + l) mod 512` is `l`. Under
  that correspondence the reference's gate is `Spec.gate` (the same cosines, summed from the same zero word by the
  host's reduction, times the same word for 1/8), its value path `Spec.value`, and its two results the residual plus
  ONE sum over the hidden axis — `Spec.outRat_eq_sum`, `Spec.outIat_eq_sum`.
-/
import proofs.«158703_j16827681866028_2_alg».proof.Proof.Gen.ReferenceIdeal.Read
import proofs.«158703_j16827681866028_2_alg».proof.Proof.Spec
import Idealize.ShloMosaic.Lib.Pipeline.Value

noncomputable section

open scoped BigOperators

namespace Cert.RefSide

open Cert.ReferenceIdeal Cert.ReferenceIdeal.Read Cert.Spec
open Idealize.ShloMosaic Idealize.ShloMosaic.ValueIdx

/-- The flat row of batch entry `b`, position `l`. -/
def fl (b : Fin 2) (l : Fin 512) : Fin 1024 :=
  ⟨b.val * 512 + l.val, by have := b.isLt; have := l.isLt; omega⟩

theorem prow_fl (b : Fin 2) (l : Fin 512) : prow (fl b l) = l :=
  Fin.ext (by show (b.val * 512 + l.val) % 512 = l.val; have := l.isLt; omega)

section Layout
variable {α : Type}

/-- An array [2, 512, n] flattened to [1024, n] reads, at flat row `(b, l)`, the array at `(b, l, ·)`. -/
theorem flat_apply {n : ℕ} (X : (⟨3, ![2, 512, n]⟩ : Shape).Idx → α)
    (h : (⟨3, ![2, 512, n]⟩ : Shape).ShapeCasts ⟨2, ![1024, n]⟩) (b : Fin 2) (l : Fin 512) (e : Fin n) :
    shapeCast ⟨2, ![1024, n]⟩ X h (ix2 (fl b l) e) = X (ix3 b l e) :=
  shapeCast_apply X h _ _ (by rw [Shape.rowMajor_val_three, Shape.rowMajor_val_two]; rfl)

/-- An array [1024, n] cut back into [2, 512, n] reads, at `(b, l, ·)`, the array at flat row `(b, l)`. -/
theorem unflat_apply {n : ℕ} (Y : (⟨2, ![1024, n]⟩ : Shape).Idx → α)
    (h : (⟨2, ![1024, n]⟩ : Shape).ShapeCasts ⟨3, ![2, 512, n]⟩) (b : Fin 2) (l : Fin 512) (e : Fin n) :
    shapeCast ⟨3, ![2, 512, n]⟩ Y h (ix3 b l e) = Y (ix2 (fl b l) e) :=
  shapeCast_apply Y h _ _ (by rw [Shape.rowMajor_val_three, Shape.rowMajor_val_two]; rfl)

end Layout

/-! ## The reference's index maps on coordinates -/

theorem i12 (b : Fin 2) (l : Fin 512) (H : Fin 2048) (k : Fin 64) : idx_main_v12 (ix3 b l H) k = ix4 b l k H :=
  funext fun a => Fin.ext (by match a with | ⟨0, _⟩ => rfl | ⟨1, _⟩ => rfl | ⟨2, _⟩ => rfl | ⟨3, _⟩ => rfl)
theorem i5 (b : Fin 2) (l : Fin 512) (k : Fin 64) (H : Fin 2048) : idx_main_v5 (ix4 b l k H) = ix4 b l k (0 : Fin 1) :=
  funext fun a => Fin.ext (by match a with | ⟨0, _⟩ => rfl | ⟨1, _⟩ => rfl | ⟨2, _⟩ => rfl | ⟨3, _⟩ => rfl)
theorem i3 (b : Fin 2) (l : Fin 512) (k : Fin 64) (u : Fin 1) : idx_main_v3 (ix4 b l k u) = ix3 b l k :=
  funext fun a => Fin.ext (by match a with | ⟨0, _⟩ => rfl | ⟨1, _⟩ => rfl | ⟨2, _⟩ => rfl)
theorem i1 (b : Fin 2) (l : Fin 512) (k : Fin 64) : idx_main_v1 (ix3 b l k) = ix3 (0 : Fin 1) l k :=
  funext fun a => Fin.ext (by match a with | ⟨0, _⟩ => rfl | ⟨1, _⟩ => rfl | ⟨2, _⟩ => rfl)
theorem i0 (u : Fin 1) (l : Fin 512) (k : Fin 64) : idx_main_v0 (ix3 u l k) = ix2 l k :=
  funext fun a => Fin.ext (by match a with | ⟨0, _⟩ => rfl | ⟨1, _⟩ => rfl)
theorem i6 (b : Fin 2) (l : Fin 512) (k : Fin 64) (H : Fin 2048) :
    idx_main_v6 (ix4 b l k H) = ix4 (0 : Fin 1) (0 : Fin 1) k H :=
  funext fun a => Fin.ext (by match a with | ⟨0, _⟩ => rfl | ⟨1, _⟩ => rfl | ⟨2, _⟩ => rfl | ⟨3, _⟩ => rfl)
theorem i4 (u v : Fin 1) (k : Fin 64) (H : Fin 2048) : idx_main_v4 (ix4 u v k H) = ix2 k H :=
  funext fun a => Fin.ext (by match a with | ⟨0, _⟩ => rfl | ⟨1, _⟩ => rfl)
theorem i9 (b : Fin 2) (l : Fin 512) (k : Fin 64) (H : Fin 2048) :
    idx_main_v9 (ix4 b l k H) = ix4 (0 : Fin 1) (0 : Fin 1) k H :=
  funext fun a => Fin.ext (by match a with | ⟨0, _⟩ => rfl | ⟨1, _⟩ => rfl | ⟨2, _⟩ => rfl | ⟨3, _⟩ => rfl)
theorem i8 (u v : Fin 1) (k : Fin 64) (H : Fin 2048) : idx_main_v8 (ix4 u v k H) = ix2 k H :=
  funext fun a => Fin.ext (by match a with | ⟨0, _⟩ => rfl | ⟨1, _⟩ => rfl)
theorem l15 (b : Fin 2) (l : Fin 512) (H : Fin 2048) (e : Fin 512) : lidx_main_v15 (ix3 b l H) e = ix3 b l e :=
  funext fun a => Fin.ext (by match a with | ⟨0, _⟩ => rfl | ⟨1, _⟩ => rfl | ⟨2, _⟩ => rfl)
theorem r15 (b : Fin 2) (l : Fin 512) (H : Fin 2048) (e : Fin 512) : ridx_main_v15 (ix3 b l H) e = ix2 e H :=
  funext fun a => Fin.ext (by match a with | ⟨0, _⟩ => rfl | ⟨1, _⟩ => rfl)
theorem l17 (b : Fin 2) (l : Fin 512) (d : Fin 512) (H : Fin 2048) : lidx_main_v17 (ix3 b l d) H = ix3 b l H :=
  funext fun a => Fin.ext (by match a with | ⟨0, _⟩ => rfl | ⟨1, _⟩ => rfl | ⟨2, _⟩ => rfl)
theorem r17 (b : Fin 2) (l : Fin 512) (d : Fin 512) (H : Fin 2048) : ridx_main_v17 (ix3 b l d) H = ix2 H d :=
  funext fun a => Fin.ext (by match a with | ⟨0, _⟩ => rfl | ⟨1, _⟩ => rfl)
theorem l19 (b : Fin 2) (l : Fin 512) (p : Fin 64) (H : Fin 2048) : lidx_main_v19 (ix3 b l p) H = ix3 b l H :=
  funext fun a => Fin.ext (by match a with | ⟨0, _⟩ => rfl | ⟨1, _⟩ => rfl | ⟨2, _⟩ => rfl)
theorem r19 (b : Fin 2) (l : Fin 512) (p : Fin 64) (H : Fin 2048) : ridx_main_v19 (ix3 b l p) H = ix2 H p :=
  funext fun a => Fin.ext (by match a with | ⟨0, _⟩ => rfl | ⟨1, _⟩ => rfl)

/-! ## The reference's stages are the specification's -/

section
variable (X0 : S2x512x512.Idx → EReal) (X1 : S2x512x64.Idx → EReal) (X2 : S512x64.Idx → EReal)
  (X3 : S512x2048.Idx → EReal) (X4 X5 : S64x2048.Idx → EReal) (X6 : S2048x512.Idx → EReal) (X7 : S2048x64.Idx → EReal)
  (hc0 : S2x512x512.ShapeCasts ⟨2, ![1024, 512]⟩) (hc1 : S2x512x64.ShapeCasts ⟨2, ![1024, 64]⟩)

/-- The reference's gate (the scaled sum of cosines) is the specification's. -/
theorem gate_eq (b : Fin 2) (l : Fin 512) (H : Fin 2048) :
    val_main_v14 (F := Ideal) X1 X2 X4 X5 (ix3 b l H)
      = gate (shapeCast ⟨2, ![1024, 64]⟩ X1 hc1) X2 X4 X5 (fl b l) H := by
  rw [val_main_v14_apply, val_main_v12_apply, val_main_v13_apply, val_main_cst_0_apply, val_main_cst_apply]
  unfold gate
  refine congrArg (fun s => (Ideal.ofBits .f32 0x00000000#32 + s) * Ideal.ofBits .f32 0x3E000000#32)
    (Finset.sum_congr rfl fun k _ => ?_)
  rw [val_main_v11_apply, val_main_v10_apply, val_main_v7_apply, val_main_v5_apply, val_main_v3_apply,
    val_main_v2_apply, val_main_v1_apply, val_main_v0_apply, val_main_v6_apply, val_main_v4_apply,
    val_main_v9_apply, val_main_v8_apply, i12, i5, i3, i1, i0, i6, i4, i9, i8, flat_apply, prow_fl]
  rfl

/-- The reference's value path is the specification's. -/
theorem value_eq (b : Fin 2) (l : Fin 512) (H : Fin 2048) :
    val_main_v15 (F := Ideal) X0 X3 (ix3 b l H) = value (shapeCast ⟨2, ![1024, 512]⟩ X0 hc0) X3 (fl b l) H := by
  rw [val_main_v15_apply]
  unfold value
  refine Finset.sum_congr rfl fun e _ => ?_
  rw [l15, r15, flat_apply]

/-- The reference's first result is the specification's first output at the flat row. -/
theorem resultR_eq (b : Fin 2) (l : Fin 512) (d : Fin 512) :
    val_main_v18 (F := Ideal) X0 X1 X2 X3 X4 X5 X6 (ix3 b l d)
      = outRat (shapeCast ⟨2, ![1024, 512]⟩ X0 hc0) (shapeCast ⟨2, ![1024, 64]⟩ X1 hc1) X2 X3 X4 X5 X6 (fl b l) d := by
  rw [outRat_eq_sum, val_main_v18_apply, val_main_v17_apply, flat_apply]
  refine congrArg (X0 (ix3 b l d) + ·) (Finset.sum_congr rfl fun H _ => ?_)
  rw [l17, r17, val_main_v16_apply, value_eq X0 X3 hc0, gate_eq X1 X2 X4 X5 hc1]
  rfl

/-- The reference's second result is the specification's second output at the flat row. -/
theorem resultI_eq (b : Fin 2) (l : Fin 512) (p : Fin 64) :
    val_main_v20 (F := Ideal) X1 X2 X4 X5 X7 (ix3 b l p)
      = outIat (shapeCast ⟨2, ![1024, 64]⟩ X1 hc1) X2 X4 X5 X7 (fl b l) p := by
  rw [outIat_eq_sum, val_main_v20_apply, val_main_v19_apply, flat_apply]
  refine congrArg (X1 (ix3 b l p) + ·) (Finset.sum_congr rfl fun H _ => ?_)
  rw [l19, r19, gate_eq X1 X2 X4 X5 hc1]

/-- The reference's first result array is the specification's first output of the flattened arrays, cut back into
    [batch, position, ·]. -/
theorem bridgeR (hu0 : (⟨2, ![1024, 512]⟩ : Shape).ShapeCasts S2x512x512) :
    val_main_v18 (F := Ideal) X0 X1 X2 X3 X4 X5 X6
      = shapeCast S2x512x512
          (outR (shapeCast ⟨2, ![1024, 512]⟩ X0 hc0) (shapeCast ⟨2, ![1024, 64]⟩ X1 hc1) X2 X3 X4 X5 X6) hu0 := by
  funext i
  obtain ⟨b, l, d, rfl⟩ : ∃ (b : Fin 2) (l : Fin 512) (d : Fin 512), i = ix3 b l d := ⟨i 0, i 1, i 2, eq_ix3 i⟩
  rw [resultR_eq X0 X1 X2 X3 X4 X5 X6 hc0 hc1 b l d, unflat_apply]
  rfl

/-- The reference's second result array likewise. -/
theorem bridgeI (hu1 : (⟨2, ![1024, 64]⟩ : Shape).ShapeCasts S2x512x64) :
    val_main_v20 (F := Ideal) X1 X2 X4 X5 X7
      = shapeCast S2x512x64 (outI (shapeCast ⟨2, ![1024, 64]⟩ X1 hc1) X2 X4 X5 X7) hu1 := by
  funext i
  obtain ⟨b, l, p, rfl⟩ : ∃ (b : Fin 2) (l : Fin 512) (p : Fin 64), i = ix3 b l p := ⟨i 0, i 1, i 2, eq_ix3 i⟩
  rw [resultI_eq X1 X2 X4 X5 X7 hc1 b l p, unflat_apply]
  rfl

end

end Cert.RefSide

end
-- ==== Proof.lean ====
/-
  The certificate's claims, assembled.

  Both programs compute, over the extended reals, the same two arrays. With rows flattened over (batch, position),
  `tc = x_imag · pos_freq`, `gate = (Σ_p cos (tc_p · w_p + b_p)) / 8` and `value = x_real · W_up`:

    out_real = x_real + (value · gate) · W_down_real        out_imag = x_imag + gate · W_down_imag.

  The kernel tiles the rows four ways and the hidden axis two ways; per grid point it adds the 64 cosines one after
  the other to a zero word, and it accumulates the two down projections over the two halves of the hidden axis in
  scratch buffers, adding the residual at the second half. The reference sums the cosines by one reduction and takes
  each down projection as one matrix product over the whole hidden axis. The two agree because addition of extended
  reals is commutative and associative and the zero word is zero: an ordered chain is its sum (`GateBlock`), and a sum
  over the hidden axis is the sum of its halves (`Spec`). No other law is used, so the precondition is never opened.
  The format conversions (f32 to bf16 operands) change no value at the ideal instance, and the scale 1/8 is the same
  word on both sides.

  The kernel's run is read off the generated frame run (`KRun.run`: per-case found pieces, the accumulation over the
  two points of a row tile, the blocks tiling the result arrays, the reshapes around the region); the reference's run
  is its generated run read one operation at a time (`RefSide`).
-/
import proofs.«158703_j16827681866028_2_alg».proof.Defs
import proofs.«158703_j16827681866028_2_alg».proof.Proof.Gen.Kernel
import proofs.«158703_j16827681866028_2_alg».proof.Proof.Gen.Kernel.Skeleton
import proofs.«158703_j16827681866028_2_alg».proof.Proof.Gen.Kernel.Launch
import proofs.«158703_j16827681866028_2_alg».proof.Proof.Gen.Kernel.Points
import proofs.«158703_j16827681866028_2_alg».proof.Proof.Gen.Kernel.Frame
import proofs.«158703_j16827681866028_2_alg».proof.Proof.Gen.KernelIdeal
import proofs.«158703_j16827681866028_2_alg».proof.Proof.Gen.KernelIdeal.Skeleton
import proofs.«158703_j16827681866028_2_alg».proof.Proof.Gen.KernelIdeal.Launch
import proofs.«158703_j16827681866028_2_alg».proof.Proof.Gen.KernelIdeal.Points
import proofs.«158703_j16827681866028_2_alg».proof.Proof.Gen.KernelIdeal.Frame
import proofs.«158703_j16827681866028_2_alg».proof.Proof.Gen.ReferenceIdeal
import proofs.«158703_j16827681866028_2_alg».proof.Proof.Gen.ReferenceIdeal.Run
import proofs.«158703_j16827681866028_2_alg».proof.Proof.Gen.ReferenceIdeal.Read
import proofs.«158703_j16827681866028_2_alg».proof.Proof.Gen.Pre_finite_inputs
import proofs.«158703_j16827681866028_2_alg».proof.Proof.KRun
import proofs.«158703_j16827681866028_2_alg».proof.Proof.RefSide
import Idealize.ShloMosaic.Adequacy
import Idealize.ShloMosaic.Init

noncomputable section

namespace Cert.Proof

open Idealize.ShloMosaic Idealize.ShloMosaic.TcCoe Idealize.SL.Sem

theorem claim : Cert.Claim := ⟨Cert.Kernel.Gen.facts, Cert.KernelIdeal.Gen.facts, Cert.ReferenceIdeal.Gen.facts, Cert.Pre_finite_inputs.Gen.facts,
  -- the word-level kernel: terminates, nothing faults, arguments unchanged
  fun m ρ _ => Cert.Kernel.Gen.frame m ρ,
  -- the idealized kernel likewise
  fun m ρ _ => Cert.KernelIdeal.Gen.frame m ρ,
  -- the reference: its run with the results dropped
  fun m ρ _ => (θ_run Cert.ReferenceIdeal.defs _ _).mono (fun _ h c => (h c).2.2)
    (Cert.ReferenceIdeal.Value.run (F := Ideal) m ρ),
  -- the ideal pass rewrote nothing
  trivial,
  -- the two idealized programs end with equal results
  by
    intro m ρ m' ρ' _ hagree
    refine ⟨fun c => shapeCast Cert.KernelIdeal.S2x512x512 (Cert.KernelIdeal.KRun.R8 m c)
        Cert.KernelIdeal.Facts₀.shapeCasts_S1024x512_S2x512x512,
      fun c => shapeCast Cert.KernelIdeal.S2x512x64 (Cert.KernelIdeal.KRun.R9 m c)
        Cert.KernelIdeal.Facts₀.shapeCasts_S1024x64_S2x512x64,
      Cert.KernelIdeal.KRun.run m ρ, ?_⟩
    refine (θ_run Cert.ReferenceIdeal.defs _ _).mono (fun _ h c => ?_)
      (Cert.ReferenceIdeal.Value.run (F := Ideal) m' ρ')
    obtain ⟨a0, a1, a2, a3, a4, a5, a6, a7⟩ := hagree c
    refine ⟨(h c).1.trans ?_, (h c).2.1.trans ?_, (h c).2.2⟩
    · rw [Cert.ReferenceIdeal.Read.val_main_v18_eq, a0, a1, a2, a3, a4, a5, a6]
      beta_reduce
      rw [Cert.KernelIdeal.KRun.R8_eq m c]
      exact Cert.RefSide.bridgeR _ _ _ _ _ _ _ _ _ _
    · rw [Cert.ReferenceIdeal.Read.val_main_v20_eq, a1, a2, a4, a5, a7]
      beta_reduce
      rw [Cert.KernelIdeal.KRun.R9_eq m c]
      exact Cert.RefSide.bridgeI _ _ _ _ _ _ _⟩

end Cert.Proof

end
